-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 256, 512]⟩ ⟨3, ![2, 256, 512]⟩ (Layout.meshBlock [2, 2, 2] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 256]⟩ ⟨2, ![256, 512]⟩ (Layout.meshBlock [2, 2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x256x512 : Shape := ⟨3, ![1, 256, 512]⟩
abbrev S_ : Shape := ⟨0, ![]⟩

class Facts : Prop where
  bcast_S_S1x256x512 : S_.BroadcastsInDim S1x256x512 (![] : Fin 0 → Fin S1x256x512.rank)
  reducesTo_S1x256x512_S_d0_1_2 : S1x256x512.ReducesTo [0, 1, 2] S_
  h_S_ : 0 < S_.numel

variable [Facts]

def fn {F : FTy → Type} [FloatOps F] (main_arg0 : FVec F S1x256x512 .f32) : IVec S_ 1 :=
  let main_v0 : FVec F S1x256x512 .f32 := Host.absf main_arg0
  let main_cst : FVec F S_ .f32 := constant S_ .f32 0x7F800000#32
  let main_v1 : FVec F S1x256x512 .f32 := broadcastInDim S1x256x512 ![] bcast_S_S1x256x512 main_cst
  let main_v2 : IVec S1x256x512 1 := cmpf .olt main_v0 main_v1
  let main_c : IVec S_ 1 := constantI S_ 1 1#1
  let main_v3 : IVec S_ 1 := (fun x v => Host.reduce IntOp.andi x v reducesTo_S1x256x512_S_d0_1_2 h_S_) main_v2 main_c
  main_v3
-- ==== Pre_finite_inputs_ReferenceIdeal.lean ====
abbrev S2x256x512 : Shape := ⟨3, ![2, 256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel

variable [Facts]

def fn {F : FTy → Type} [FloatOps F] (main_arg0 : FVec F S2x256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  main_v3
-- ==== Kernel.lean ====
abbrev S1x256x512 : Shape := ⟨3, ![1, 256, 512]⟩
abbrev S256x256 : Shape := ⟨2, ![256, 256]⟩
abbrev S2 : Shape := ⟨1, ![2]⟩
abbrev S_ : Shape := ⟨0, ![]⟩
abbrev S1 : Shape := ⟨1, ![1]⟩
abbrev S128x256 : Shape := ⟨2, ![128, 256]⟩
abbrev S1x128x256 : Shape := ⟨3, ![1, 128, 256]⟩
abbrev S1x256x256 : Shape := ⟨3, ![1, 256, 256]⟩

abbrev nBuf : Space → Nat
  | .hbm => 2
  | .vmem => 3
  | .smem => 0
  | _ => 0

abbrev bufTy : (tb : Table) → Fin (tcTables nBuf tb) → BufTy
  | .hbm, ⟨0, _⟩ => ⟨S1x256x512, .f32⟩
  | .hbm, ⟨1, _⟩ => ⟨S256x256, .f32⟩
  | .local _ .vmem, ⟨0, _⟩ => ⟨S1x256x512, .f32⟩
  | .local _ .vmem, ⟨1, _⟩ => ⟨S256x256, .f32⟩
  | .local _ .vmem, ⟨2, _⟩ => ⟨S256x256, .f32⟩
  | _, _ => ⟨S1x256x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  { ofTc nBuf bufTy 1 6 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_6 : BitVec 32 := 2#32
  let v13 : BitVec 32 := Scalar.muli v9 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_off1 (d0 : Dev nD) : Fin 3 → Nat :=
  let c0_i32_11 : BitVec 32 := 0#32
  let c0_i32_20 : BitVec 32 := 0#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let c256_i32 : BitVec 32 := 256#32
  let v18 : BitVec 32 := Scalar.muli v17 c256_i32
  ![0, 0, v18.toNat]
def k0_dev2 (d0 : Dev nD) : Nat :=
  let c0_i32_15 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_14 : BitVec 32 := 4#32
  let v20 : BitVec 32 := Scalar.muli v2 c4_i32_14
  let v21 : BitVec 32 := Scalar.addi c0_i32_15 v20
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_16 : BitVec 32 := 2#32
  let v22 : BitVec 32 := Scalar.muli v9 c2_i32_16
  let v23 : BitVec 32 := Scalar.addi v21 v22
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v24 : BitVec 32 := Scalar.muli v8 c1_i32_17
  let v25 : BitVec 32 := Scalar.addi v23 v24
  v25.toNat
def k0_off2 (d0 : Dev nD) : Fin 3 → Nat :=
  let c0_i32_21 : BitVec 32 := 0#32
  let c128_i32_29 : BitVec 32 := 128#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let c256_i32 : BitVec 32 := 256#32
  let v18 : BitVec 32 := Scalar.muli v17 c256_i32
  ![0, 128, v18.toNat]
def k0_dev3 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v33 : BitVec 32 := Scalar.muli v2 c4_i32_24
  let v34 : BitVec 32 := Scalar.addi c0_i32_25 v33
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_26 : BitVec 32 := 2#32
  let v35 : BitVec 32 := Scalar.muli v9 c2_i32_26
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_27 : BitVec 32 := 1#32
  let v37 : BitVec 32 := Scalar.muli v8 c1_i32_27
  let v38 : BitVec 32 := Scalar.addi v36 v37
  v38.toNat
def k0_off3 (d0 : Dev nD) : Fin 3 → Nat :=
  let c0 : Index := 0#32
  let c0_30 : Index := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c256_i32_10 : BitVec 32 := 256#32
  let v19 : BitVec 32 := Scalar.muli v5 c256_i32_10
  let v46 : Index := Scalar.indexCast v19
  ![0, 0, v46.toNat]
abbrev stage0_0 : Fin 1 → Memref sig .tc .vmem S1x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S2_S1_0 : ∀ a, (![0] : Fin 1 → Nat) a + S1.size a ≤ S2.size a
  squeezes_S1_S_ : S1.Squeezes S_
  inb_S256x256_S128x256_0_0 : ∀ a, (![0, 0] : Fin 2 → Nat) a + S128x256.size a ≤ S256x256.size a
  squeezes_S1x128x256_S128x256 : S1x128x256.Squeezes S128x256
  inb_S2_S1_1 : ∀ a, (![1] : Fin 1 → Nat) a + S1.size a ≤ S2.size a
  inb_S256x256_S128x256_128_0 : ∀ a, (![128, 0] : Fin 2 → Nat) a + S128x256.size a ≤ S256x256.size a
  h_S1x256x256 : 0 < S1x256x256.numel
  shapeCasts_S1x256x256_S256x256 : S1x256x256.ShapeCasts S256x256
  inb_S256x256_S256x256_0_0 : ∀ a, (![0, 0] : Fin 2 → Nat) a + S256x256.size a ≤ S256x256.size a
  h_S256x256 : 0 < S256x256.numel
  h_S128x256 : 0 < S128x256.numel
  shapeCasts_S128x256_S128x256 : S128x256.ShapeCasts S128x256
  hcc0_scratch1 : 2 + S2.numel ≤ 6
  hcc0_scratch2 : 4 + S2.numel ≤ 6
  k0_dev1_lt : ∀ d0 : Dev nD, (k0_dev1 d0) < nD
  k0_off1_inb : ∀ d0 : Dev nD, ∀ a, (k0_off1 d0) a + S1x128x256.size a ≤ S1x256x512.size a
  k0_dev2_lt : ∀ d0 : Dev nD, (k0_dev2 d0) < nD
  k0_off2_inb : ∀ d0 : Dev nD, ∀ a, (k0_off2 d0) a + S1x128x256.size a ≤ S1x256x512.size a
  k0_dev3_lt : ∀ d0 : Dev nD, (k0_dev3 d0) < nD
  k0_off3_inb : ∀ d0 : Dev nD, ∀ a, (k0_off3 d0) a + S1x256x256.size a ≤ S1x256x512.size a
  hstage0_0 : ∀ j, (stage0_0 j).IsWhole
  hstage0_1 : ∀ j, (stage0_1 j).IsWhole

variable [Facts₀]

abbrev cc0_scratch1 : DmaSems sig S2 := SemArray.consecutive 2 S2 hcc0_scratch1
abbrev cc0_scratch2 : DmaSems sig S2 := SemArray.consecutive 4 S2 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2x256x512 : Shape := ⟨3, ![2, 256, 512]⟩
abbrev S_ : Shape := ⟨0, ![]⟩
abbrev S256x512 : Shape := ⟨2, ![256, 512]⟩

abbrev nBuf : Space → Nat
  | .hbm => 3
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S_, .f32⟩
  | .hbm, ⟨2, _⟩ => ⟨S256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S2x256x512_S256x512_d0 : S2x256x512.ReducesTo [0] S256x512
  h_S_ : 0 < S_.numel

variable [Facts₀]

class Facts : Prop extends Facts₀ where

variable [Facts]
-- ==== Proof.KernelProto.lean ====
/-
  A reduce-scatter over the mesh axis y of a 2 × 2 × 2 mesh, in one exchange. Device c (coordinates x, y, z; its
  partner `peer c` differs in y alone) holds the block x[y] of f32[2, 256, 512]. It keeps its own column half
  (columns 256·y … 256·y + 255), sends the other half to its partner in two copies of 128 rows each, into the
  partner's landing buffer, and adds what its partner sent to what it kept: rows 0–127 after the first copy has
  landed, rows 128–255 after the second.

  The protocol, per device, over five semaphore cells of one round each:
    * the barrier cell: one duty, paid by the partner's signal of one unit; it hands over the partner's landing
      buffer (the partner is inside the kernel, so the buffer exists and is the sender's to write);
    * two send cells (one per copy): one duty each, paid by the device's own copy once its source rows are read;
      it returns the share of the source rows lent to the copy;
    * two receive cells (one per copy): one duty each, paid by the partner's copy once the destination rows are
      written; it hands over those rows of the landing buffer holding the partner's source rows (the second also
      returns the rest of the buffer that neither copy touches).
  A device waits on its barrier cell while it still owes its partner the two receive credits: receive cells sit
  above barrier cells, and everything else below, which is the whole deadlock argument.

  This module: the resource algebra, the partner involution, the cells, the contents, the schedule and its tables,
  what each device owes at launch, the levels, and the pipeline's proof data. Stated for any float instance.
-/
import proofs.«900472_g7700000000000473_dist_rs_v7x_xyz2x2x2_y_m256_n256_f32_1_alg».proof.Proof.Gen.Kernel
import proofs.«900472_g7700000000000473_dist_rs_v7x_xyz2x2x2_y_m256_n256_f32_1_alg».proof.Proof.Gen.Kernel.Skeleton
import proofs.«900472_g7700000000000473_dist_rs_v7x_xyz2x2x2_y_m256_n256_f32_1_alg».proof.Proof.Gen.Kernel.Launch
import proofs.«900472_g7700000000000473_dist_rs_v7x_xyz2x2x2_y_m256_n256_f32_1_alg».proof.Proof.Gen.Kernel.Points
import Idealize.ShloMosaic.Lib.Pipeline.Launch
import Idealize.ShloMosaic.Lib.Pipeline.Kit
import Idealize.ShloMosaic.Lib.Tactic

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The partner: the device at the other y -/

def peer (c : Dev nD) : Dev nD := ⟨(4 * (c.val / 4) + (c.val % 2) + 2) - 2 * ((c.val / 2) % 2), by have h : c.val < 8 := c.isLt; show _ < 8; omega⟩

theorem peer_peer (c : Dev nD) : peer (peer c) = c := by revert c; decide
theorem peer_ne (c : Dev nD) : peer c ≠ c := by revert c; decide

/-- The kernel's three device chains all name the partner. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)

def pe : Dev nD ≃ Dev nD := ⟨peer, peer, peer_peer, peer_peer⟩

/-! ## The memrefs and cells -/

abbrev xM : Memref sig .tc .vmem S1x256x512 .f32 := Memref.whole cc0_stg0_0
abbrev oM : Memref sig .tc .vmem S256x256 .f32 := Memref.whole cc0_stg1_0
abbrev rM : Memref sig .tc .vmem S256x256 .f32 := Memref.whole cc0_scratch0

/-- The rows of the other column half a device sends: rows 0–127 and rows 128–255. -/
abbrev src0 (c : Dev nD) : Memref sig .tc .vmem S128x256 .f32 :=
  (xM.slice (Rect.unit (s := S1x256x512) (k0_off1 c) S1x128x256.size (k0_off1_inb c)) (fun _ => rfl)).squeeze S128x256 squeezes_S1x128x256_S128x256
abbrev src1 (c : Dev nD) : Memref sig .tc .vmem S128x256 .f32 :=
  (xM.slice (Rect.unit (s := S1x256x512) (k0_off2 c) S1x128x256.size (k0_off2_inb c)) (fun _ => rfl)).squeeze S128x256 squeezes_S1x128x256_S128x256
/-- The rows of the landing buffer they are written to. -/
abbrev dst0 : Memref sig .tc .vmem S128x256 .f32 :=
  rM.slice (Rect.unit (s := S256x256) ![0, 0] S128x256.size inb_S256x256_S128x256_0_0) (fun _ => rfl)
abbrev dst1 : Memref sig .tc .vmem S128x256 .f32 :=
  rM.slice (Rect.unit (s := S256x256) ![128, 0] S128x256.size inb_S256x256_S128x256_128_0) (fun _ => rfl)

abbrev barS : Sem sig := (SemArray.scalar (sig.barrier 0 rfl) : Sems sig S_).sem
abbrev sS0 : DmaSem sig := 2
abbrev sS1 : DmaSem sig := 3
abbrev rS0 : DmaSem sig := 4
abbrev rS1 : DmaSem sig := 5

theorem slice_s0 : ((cc0_scratch1.slice (Rect.unit (s := S2) ![0] ![1] inb_S2_S1_0)).squeeze S_ squeezes_S1_S_).sem = sS0 := rfl
theorem slice_s1 : ((cc0_scratch1.slice (Rect.unit (s := S2) ![1] ![1] inb_S2_S1_1)).squeeze S_ squeezes_S1_S_).sem = sS1 := rfl
theorem slice_r0 : ((cc0_scratch2.slice (Rect.unit (s := S2) ![0] ![1] inb_S2_S1_0)).squeeze S_ squeezes_S1_S_).sem = rS0 := rfl
theorem slice_r1 : ((cc0_scratch2.slice (Rect.unit (s := S2) ![1] ![1] inb_S2_S1_1)).squeeze S_ squeezes_S1_S_).sem = rS1 := rfl

abbrev barCell (c : Dev nD) : GSem nD τ sig := ((c : Thread nD τ), .reg barS)
abbrev sCell0 (c : Dev nD) : GSem nD τ sig := ((c : Thread nD τ), .dma sS0)
abbrev sCell1 (c : Dev nD) : GSem nD τ sig := ((c : Thread nD τ), .dma sS1)
abbrev rCell0 (c : Dev nD) : GSem nD τ sig := ((c : Thread nD τ), .dma rS0)
abbrev rCell1 (c : Dev nD) : GSem nD τ sig := ((c : Thread nD τ), .dma rS1)

/-- The kernel's own (scoped) semaphores as the launch theorem indexes them, -/
abbrev osem : Fin 4 → SemLoc sig := fun | 0 => .dma sS0 | 1 => .dma sS1 | 2 => .dma rS0 | 3 => .dma rS1
/-- and all five of the exchange's, as this proof indexes them: barrier, send 0, send 1, receive 0, receive 1. -/
abbrev csem : Fin 5 → SemLoc sig := fun | 0 => .reg barS | 1 => .dma sS0 | 2 => .dma sS1 | 3 => .dma rS0 | 4 => .dma rS1
abbrev kcell (ck : Dev nD × Fin 5) : GSem nD τ sig := ((ck.1 : Thread nD τ), csem ck.2)

abbrev N : ℕ := (dst0 : Memref sig .tc .vmem S128x256 .f32).view.dmaCredit
theorem N_pos : 0 < N := View.dmaCredit_pos _ (by decide)
theorem N1_eq : (dst1 : Memref sig .tc .vmem S128x256 .f32).view.dmaCredit = N := rfl

/-! ## Contents -/

/-- Device `c`'s staged block of the input. -/
def xstg (c : Dev nD) : (cc0_stg0_0 : Ref sig .tc).ty.Contents (Elt F) :=
  (win0_0.blk (0 : Fin 1)).view.read (Elt F) ((s₀ m ρ).mem ((c : Thread nD τ).loc main_arg0))

/-- What the partner's two copies carry to device `c`: the partner's source rows. -/
def got0 (c : Dev nD) : S128x256.Idx → Elt F .f32 := (src0 (peer c)).view.read (Elt F) (xstg m ρ (peer c))
def got1 (c : Dev nD) : S128x256.Idx → Elt F .f32 := (src1 (peer c)).view.read (Elt F) (xstg m ρ (peer c))

/-- The three shares of the staged input: one lent to each copy, one kept for the device's own load. -/
abbrev qA : PosShare TreeShare := fullShare.left
abbrev qB : PosShare TreeShare := fullShare.right.left
abbrev qC : PosShare TreeShare := fullShare.right.right

abbrev D0 (c : Dev nD) : Finset (Idx ((dst0 : Memref sig .tc .vmem S128x256 .f32).view.loc (c : Thread nD τ))) := (dst0 : Memref sig .tc .vmem S128x256 .f32).view.set
abbrev D1 (c : Dev nD) : Finset (Idx ((dst0 : Memref sig .tc .vmem S128x256 .f32).view.loc (c : Thread nD τ))) := (dst1 : Memref sig .tc .vmem S128x256 .f32).view.set

def scrPts (c : Dev nD) (f : Buf (Elt F) ((rM : Memref sig .tc .vmem S256x256 .f32).view.loc (c : Thread nD τ))) : sProp 𝕄 :=
  (rM : Memref sig .tc .vmem S256x256 .f32).view.loc (c : Thread nD τ) ↦[(rM : Memref sig .tc .vmem S256x256 .f32).view.set]{fullShare} f

/-- What the partner's signal hands device `c`: the partner's landing buffer, whole. -/
def barPay (c : Dev nD) : sProp 𝕄 := iprop(∃ f, scrPts (peer c) f)
/-- What the waits on the send cells return: the shares of the source rows lent to the copies. -/
def sendPay0 (c : Dev nD) : sProp 𝕄 :=
  (src0 c).view.loc (c : Thread nD τ) ↦[(src0 c).view.set]{qA} xstg m ρ c
def sendPay1 (c : Dev nD) : sProp 𝕄 :=
  (src1 c).view.loc (c : Thread nD τ) ↦[(src1 c).view.set]{qB} xstg m ρ c
/-- What the waits on the receive cells hand over: the destination rows, written with the partner's source rows (the
    second with the part of the buffer outside both destinations besides). -/
def recvPay0 (c : Dev nD) : sProp 𝕄 :=
  iprop(∃ fd : Buf (Elt F) ((dst0 : Memref sig .tc .vmem S128x256 .f32).view.loc (c : Thread nD τ)),
    (dst0 : Memref sig .tc .vmem S128x256 .f32).view.loc (c : Thread nD τ) ↦[(dst0 : Memref sig .tc .vmem S128x256 .f32).view.set]{fullShare}
      ((dst0 : Memref sig .tc .vmem S128x256 .f32).view.write (Elt F) fd (got0 m ρ c) Finset.univ))
def recvPay1 (c : Dev nD) : sProp 𝕄 :=
  iprop(∃ fd : Buf (Elt F) ((dst1 : Memref sig .tc .vmem S128x256 .f32).view.loc (c : Thread nD τ)),
    ((dst1 : Memref sig .tc .vmem S128x256 .f32).view.loc (c : Thread nD τ) ↦[(dst1 : Memref sig .tc .vmem S128x256 .f32).view.set]{fullShare}
      ((dst1 : Memref sig .tc .vmem S128x256 .f32).view.write (Elt F) fd (got1 m ρ c) Finset.univ))
    ∗ ((dst1 : Memref sig .tc .vmem S128x256 .f32).view.loc (c : Thread nD τ) ↦[(Finset.univ \ D0 c) \ D1 c]{fullShare} fd))

omit [FloatOps F] in
theorem scr_set : (rM : Memref sig .tc .vmem S256x256 .f32).view.set = Finset.univ := View.set_whole _
omit [FloatOps F] in
theorem scrPts_eq (c : Dev nD) (f : Buf (Elt F) ((c : Thread nD τ).loc cc0_scratch0)) :
    scrPts c f = (((c : Thread nD τ).loc cc0_scratch0) ↦{fullShare} f : sProp 𝕄) := by unfold scrPts; rw [scr_set]

/-! ## The schedule -/

/-- One round, round 0, one duty (`false`) a cell: a barrier cell's of one unit, a send or receive cell's of the
    copy's credit. -/
def sched : Rounds.Schedule (GSem nD τ sig) Bool 𝕄 where
  duties g r := if r = 0 ∧ g.1.2 = .tc ∧ (g.2 = .reg barS ∨ g.2 = .dma sS0 ∨ g.2 = .dma sS1 ∨ g.2 = .dma rS0 ∨ g.2 = .dma rS1) then {false} else ∅
  unitless _ := False
  amount g _ _ := if g.2 = .reg barS then 1 else N
  payload g _ _ :=
    if g.2 = .reg barS then barPay g.1.1
    else if g.2 = .dma rS0 then recvPay0 m ρ g.1.1
    else if g.2 = .dma rS1 then recvPay1 m ρ g.1.1
    else if g.2 = .dma sS0 then sendPay0 m ρ g.1.1
    else if g.2 = .dma sS1 then sendPay1 m ρ g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Bool) :
    BI.Storable (upEmb : UEmb _ 𝕄) ((sched (F := F) m ρ).payload g r d) := by
  show BI.Storable upEmb (if g.2 = .reg barS then barPay g.1.1
    else if g.2 = .dma rS0 then recvPay0 m ρ g.1.1
    else if g.2 = .dma rS1 then recvPay1 m ρ g.1.1
    else if g.2 = .dma sS0 then sendPay0 m ρ g.1.1
    else if g.2 = .dma sS1 then sendPay1 m ρ g.1.1
    else iprop(emp))
  unfold barPay recvPay0 recvPay1 sendPay0 sendPay1 scrPts
  (repeat' split) <;> infer_instance

section Sched
variable (c : Dev nD)

theorem s0_ne_bar : (SemLoc.dma sS0 : SemLoc sig) ≠ .reg barS := fun h => by cases h
theorem s1_ne_bar : (SemLoc.dma sS1 : SemLoc sig) ≠ .reg barS := fun h => by cases h
theorem r0_ne_bar : (SemLoc.dma rS0 : SemLoc sig) ≠ .reg barS := fun h => by cases h
theorem r1_ne_bar : (SemLoc.dma rS1 : SemLoc sig) ≠ .reg barS := fun h => by cases h
theorem r1_ne_r0 : (SemLoc.dma rS1 : SemLoc sig) ≠ .dma rS0 := by decide
theorem s0_ne_r0 : (SemLoc.dma sS0 : SemLoc sig) ≠ .dma rS0 := by decide
theorem s0_ne_r1 : (SemLoc.dma sS0 : SemLoc sig) ≠ .dma rS1 := by decide
theorem s1_ne_r0 : (SemLoc.dma sS1 : SemLoc sig) ≠ .dma rS0 := by decide
theorem s1_ne_r1 : (SemLoc.dma sS1 : SemLoc sig) ≠ .dma rS1 := by decide
theorem s1_ne_s0 : (SemLoc.dma sS1 : SemLoc sig) ≠ .dma sS0 := by decide

omit [FloatOps F] in
theorem duties_bar : (sched (F := F) m ρ).duties (barCell c) 0 = {false} := by dsimp only [sched]; exact if_pos ⟨rfl, rfl, .inl rfl⟩
omit [FloatOps F] in
theorem duties_s0 : (sched (F := F) m ρ).duties (sCell0 c) 0 = {false} := by dsimp only [sched]; exact if_pos ⟨rfl, rfl, .inr (.inl rfl)⟩
omit [FloatOps F] in
theorem duties_s1 : (sched (F := F) m ρ).duties (sCell1 c) 0 = {false} := by dsimp only [sched]; exact if_pos ⟨rfl, rfl, .inr (.inr (.inl rfl))⟩
omit [FloatOps F] in
theorem duties_r0 : (sched (F := F) m ρ).duties (rCell0 c) 0 = {false} := by dsimp only [sched]; exact if_pos ⟨rfl, rfl, .inr (.inr (.inr (.inl rfl)))⟩
omit [FloatOps F] in
theorem duties_r1 : (sched (F := F) m ρ).duties (rCell1 c) 0 = {false} := by dsimp only [sched]; exact if_pos ⟨rfl, rfl, .inr (.inr (.inr (.inr rfl)))⟩
omit [FloatOps F] in
theorem duties_later (g : GSem nD τ sig) : ∀ r, 1 ≤ r → (sched (F := F) m ρ).duties g r = ∅ :=
  fun r hr => by dsimp only [sched]; rw [if_neg fun h => by omega]

omit [FloatOps F] in
theorem amount_bar (d : Bool) : (sched (F := F) m ρ).amount (barCell c) 0 d = 1 := by dsimp only [sched]; exact if_pos rfl
omit [FloatOps F] in
theorem amount_s0 (d : Bool) : (sched (F := F) m ρ).amount (sCell0 c) 0 d = N := by dsimp only [sched]; exact if_neg s0_ne_bar
omit [FloatOps F] in
theorem amount_s1 (d : Bool) : (sched (F := F) m ρ).amount (sCell1 c) 0 d = N := by dsimp only [sched]; exact if_neg s1_ne_bar
omit [FloatOps F] in
theorem amount_r0 (d : Bool) : (sched (F := F) m ρ).amount (rCell0 c) 0 d = N := by dsimp only [sched]; exact if_neg r0_ne_bar
omit [FloatOps F] in
theorem amount_r1 (d : Bool) : (sched (F := F) m ρ).amount (rCell1 c) 0 d = N := by dsimp only [sched]; exact if_neg r1_ne_bar

omit [FloatOps F] in
theorem expect_bar : (sched (F := F) m ρ).expect (barCell c) 0 = 1 := by
  unfold Schedule.expect Schedule.amountOf; rw [duties_bar, Finset.sum_singleton, amount_bar]
omit [FloatOps F] in
theorem expect_s0 : (sched (F := F) m ρ).expect (sCell0 c) 0 = N := by
  unfold Schedule.expect Schedule.amountOf; rw [duties_s0, Finset.sum_singleton, amount_s0]
omit [FloatOps F] in
theorem expect_s1 : (sched (F := F) m ρ).expect (sCell1 c) 0 = N := by
  unfold Schedule.expect Schedule.amountOf; rw [duties_s1, Finset.sum_singleton, amount_s1]
omit [FloatOps F] in
theorem expect_r0 : (sched (F := F) m ρ).expect (rCell0 c) 0 = N := by
  unfold Schedule.expect Schedule.amountOf; rw [duties_r0, Finset.sum_singleton, amount_r0]
omit [FloatOps F] in
theorem expect_r1 : (sched (F := F) m ρ).expect (rCell1 c) 0 = N := by
  unfold Schedule.expect Schedule.amountOf; rw [duties_r1, Finset.sum_singleton, amount_r1]

omit [FloatOps F] in
theorem payload_bar (d : Bool) : (sched (F := F) m ρ).payload (barCell c) 0 d = barPay c := by dsimp only [sched]; rw [if_pos rfl]
omit [FloatOps F] in
theorem payload_r0 (d : Bool) : (sched (F := F) m ρ).payload (rCell0 c) 0 d = recvPay0 m ρ c := by
  dsimp only [sched]; rw [if_neg r0_ne_bar, if_pos rfl]
omit [FloatOps F] in
theorem payload_r1 (d : Bool) : (sched (F := F) m ρ).payload (rCell1 c) 0 d = recvPay1 m ρ c := by
  dsimp only [sched]; rw [if_neg r1_ne_bar, if_neg r1_ne_r0, if_pos rfl]
omit [FloatOps F] in
theorem payload_s0 (d : Bool) : (sched (F := F) m ρ).payload (sCell0 c) 0 d = sendPay0 m ρ c := by
  dsimp only [sched]; rw [if_neg s0_ne_bar, if_neg s0_ne_r0, if_neg s0_ne_r1, if_pos rfl]
omit [FloatOps F] in
theorem payload_s1 (d : Bool) : (sched (F := F) m ρ).payload (sCell1 c) 0 d = sendPay1 m ρ c := by
  dsimp only [sched]; rw [if_neg s1_ne_bar, if_neg s1_ne_r0, if_neg s1_ne_r1, if_neg s1_ne_s0, if_pos rfl]

omit [FloatOps F] in
theorem rest_bar : bigSep ((sched (F := F) m ρ).duties (barCell c) 0 \ ∅) (fun d => (sched (F := F) m ρ).payload (barCell c) 0 d) = barPay c := by
  rw [Finset.sdiff_empty, duties_bar, bigSep_singleton, payload_bar]
omit [FloatOps F] in
theorem rest_s0 : bigSep ((sched (F := F) m ρ).duties (sCell0 c) 0 \ ∅) (fun d => (sched (F := F) m ρ).payload (sCell0 c) 0 d) = sendPay0 m ρ c := by
  rw [Finset.sdiff_empty, duties_s0, bigSep_singleton, payload_s0]
omit [FloatOps F] in
theorem rest_s1 : bigSep ((sched (F := F) m ρ).duties (sCell1 c) 0 \ ∅) (fun d => (sched (F := F) m ρ).payload (sCell1 c) 0 d) = sendPay1 m ρ c := by
  rw [Finset.sdiff_empty, duties_s1, bigSep_singleton, payload_s1]
omit [FloatOps F] in
theorem rest_r0 : bigSep ((sched (F := F) m ρ).duties (rCell0 c) 0 \ ∅) (fun d => (sched (F := F) m ρ).payload (rCell0 c) 0 d) = recvPay0 m ρ c := by
  rw [Finset.sdiff_empty, duties_r0, bigSep_singleton, payload_r0]
omit [FloatOps F] in
theorem rest_r1 : bigSep ((sched (F := F) m ρ).duties (rCell1 c) 0 \ ∅) (fun d => (sched (F := F) m ρ).payload (rCell1 c) 0 d) = recvPay1 m ρ c := by
  rw [Finset.sdiff_empty, duties_r1, bigSep_singleton, payload_r1]

end Sched

/-! ## What each device owes at launch; the levels -/

/-- Device `c` owes its partner's two receive cells the copies' credit and its partner's barrier cell one unit — summed
    so that the signal peels the last summand, the first copy the next, the second copy the first. -/
def Oa (c : Dev nD) : CellTallies nD τ sig Unit := tallyAt (rCell1 (peer c)) () N + tallyAt (rCell0 (peer c)) () N
def O₀ (c : Dev nD) : CellTallies nD τ sig Unit := Oa c + tallyAt (barCell (peer c)) () 1

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if (g.2 = .dma rS0 ∨ g.2 = .dma rS1) then 2 else 0

theorem L_of_ne (g : GSem nD τ sig) (h : g.1.2 ≠ .tc) : L g = ∅ := if_neg h
theorem L_tc (c : Dev nD) (sm : SemLoc sig) : L ((c : Thread nD τ), sm) = {()} := if_pos rfl

theorem Oa_pos {c : Dev nD} {g : GSem nD τ sig} {u : Unit} (h : 0 < Oa c g u) :
    g = rCell1 (peer c) ∨ g = rCell0 (peer c) := by
  unfold Oa at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

theorem O₀_pos {c : Dev nD} {g : GSem nD τ sig} {u : Unit} (h : 0 < O₀ c g u) :
    g = rCell1 (peer c) ∨ g = rCell0 (peer c) ∨ g = barCell (peer c) := by
  unfold O₀ Oa at h
  rw [Pi.add_apply, Finsupp.add_apply, Pi.add_apply, Finsupp.add_apply, tallyAt_apply, tallyAt_apply, tallyAt_apply] at h
  by_contra hn
  rw [not_or, not_or] at hn
  rw [if_neg (fun h' => hn.1 h'.1), if_neg (fun h' => hn.2.1 h'.1), if_neg (fun h' => hn.2.2 h'.1)] at h
  exact Nat.lt_irrefl 0 h

theorem lv_r0 (c : Dev nD) (u : Unit) : lv (rCell0 c) u = 2 := by dsimp only [lv]; rw [if_neg r0_ne_bar, if_pos (Or.inl rfl)]
theorem lv_r1 (c : Dev nD) (u : Unit) : lv (rCell1 c) u = 2 := by dsimp only [lv]; rw [if_neg r1_ne_bar, if_pos (Or.inr rfl)]
theorem lv_bar (c : Dev nD) (u : Unit) : lv (barCell c) u = 1 := by dsimp only [lv]; rw [if_pos rfl]

omit [FloatOps F] in
/-- A staging cell (level 0) may be waited on whatever the device still owes: all of that is above it. -/
theorem mayWait_stage (c : Dev nD) (q : DmaSem sig) (hq0 : SemLoc.dma q ≠ .dma rS0) (hq1 : SemLoc.dma q ≠ .dma rS1) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl <;> exact Finset.mem_singleton_self _)
      (fun p hp => by rw [Finset.mem_singleton.mp hp]; dsimp only [lv]; rw [if_neg (fun h => by cases h), if_neg (fun h => h.elim hq0 hq1)])
      (fun g u hg => by
        rcases O₀_pos hg with rfl | rfl | rfl
        · rw [lv_r1]; decide
        · rw [lv_r0]; decide
        · rw [lv_bar]; decide)
  · rw [MayWait_zero]; iintro -; iempintro

omit [FloatOps F] in
/-- At its barrier wait a device owes its partner's receive credits only: receive cells, above its barrier cell. -/
theorem mayWait_bar (c : Dev nD) :
    (levAts L lv : sProp 𝕄) ⊢ MayWait (c : Thread nD τ) (.reg barS) () (Oa c) :=
  MayOwe.of_cut (L := L) (lev := lv) 1 (fun p hp => by rw [Finset.mem_singleton.mp hp, L_tc]; exact Finset.mem_singleton_self _)
    (fun g u hg => by rcases Oa_pos hg with rfl | rfl <;> exact Finset.mem_singleton_self _)
    (fun p hp => by rw [Finset.mem_singleton.mp hp]; exact le_of_eq (lv_bar c ()))
    (fun g u hg => by
      rcases Oa_pos hg with rfl | rfl
      · rw [lv_r1]; decide
      · rw [lv_r0]; decide)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev r3 (c : Dev nD) : Rect S1x256x512 := Rect.unit (s := S1x256x512) (k0_off3 c) S1x256x256.size (k0_off3_inb c)
abbrev rO : Rect S256x256 := Rect.unit (s := S256x256) ![0, 0] S256x256.size inb_S256x256_S256x256_0_0
abbrev rT : Rect S256x256 := Rect.unit (s := S256x256) ![0, 0] S128x256.size inb_S256x256_S128x256_0_0
abbrev rB : Rect S256x256 := Rect.unit (s := S256x256) ![128, 0] S128x256.size inb_S256x256_S128x256_128_0

/-- The column half device `c` keeps, -/
def mine (c : Dev nD) : (cc0_stg1_0 : Ref sig .tc).ty.Contents (Elt F) :=
  k0_pay1 ((xM : Memref sig .tc .vmem S1x256x512 .f32).view.readAt (Elt F) (r3 c).toLoadRect (xstg m ρ c))
/-- with the partner's rows 0–127 added to its rows 0–127, -/
def out2 (c : Dev nD) : (cc0_stg1_0 : Ref sig .tc).ty.Contents (Elt F) :=
  ((oM : Memref sig .tc .vmem S256x256 .f32).access rT : View sig .tc _ _ _).write (Elt F) (mine m ρ c)
    (k0_pay2 ((oM : Memref sig .tc .vmem S256x256 .f32).view.readAt (Elt F) rT.toLoadRect (mine m ρ c)) (got0 m ρ c)) Finset.univ
/-- and then the partner's rows 128–255 to its rows 128–255: the kernel's result on device `c`. -/
def outAt (c : Dev nD) : (cc0_stg1_0 : Ref sig .tc).ty.Contents (Elt F) :=
  ((oM : Memref sig .tc .vmem S256x256 .f32).access rB : View sig .tc _ _ _).write (Elt F) (out2 m ρ c)
    (k0_pay3 ((oM : Memref sig .tc .vmem S256x256 .f32).view.readAt (Elt F) rB.toLoadRect (out2 m ρ c)) (got1 m ρ c)) Finset.univ

/-- The cells' invariants device `c`'s body opens, under the names `K` the launch allocated them at: its own five, and
    its partner's barrier cell (its signal) and two receive cells (its copies). -/
def invs (K : Dev nD × Fin 5 → ℕ) (c : Dev nD) : sProp 𝕄 :=
  iprop(cellInv ER (sched m ρ) (K (c, 0)) (barCell c) ∗ cellInv ER (sched m ρ) (K (c, 1)) (sCell0 c) ∗ cellInv ER (sched m ρ) (K (c, 2)) (sCell1 c)
    ∗ cellInv ER (sched m ρ) (K (c, 3)) (rCell0 c) ∗ cellInv ER (sched m ρ) (K (c, 4)) (rCell1 c)
    ∗ cellInv ER (sched m ρ) (K (peer c, 0)) (barCell (peer c)) ∗ cellInv ER (sched m ρ) (K (peer c, 3)) (rCell0 (peer c))
    ∗ cellInv ER (sched m ρ) (K (peer c, 4)) (rCell1 (peer c)))

instance invs_persistent (K : Dev nD × Fin 5 → ℕ) (c : Dev nD) : BI.Persistent (invs m ρ K c) := by unfold invs; infer_instance

/-- The exchange's ghost state device `c` starts from: the invariants; its positions at round 0 of its five cells; the
    reached-marks of the cells it pays; the five duty tokens it pays with — its partner's barrier duty, its partner's
    two receive duties, its own two send duties. -/
def ghost (K : Dev nD × Fin 5 → ℕ) (c : Dev nD) : sProp 𝕄 :=
  iprop(invs m ρ K c
    ∗ atPos ER (barCell c) 0 ∅ 0 ∗ atPos ER (sCell0 c) 0 ∅ 0 ∗ atPos ER (sCell1 c) 0 ∅ 0 ∗ atPos ER (rCell0 c) 0 ∅ 0 ∗ atPos ER (rCell1 c) 0 ∅ 0
    ∗ reached ER (barCell (peer c)) 0 ∗ reached ER (rCell0 (peer c)) 0 ∗ reached ER (rCell1 (peer c)) 0 ∗ reached ER (sCell0 c) 0 ∗ reached ER (sCell1 c) 0
    ∗ dutyTok ER (barCell (peer c)) 0 false ∗ dutyTok ER (rCell0 (peer c)) 0 false ∗ dutyTok ER (rCell1 (peer c)) 0 false
    ∗ dutyTok ER (sCell0 c) 0 false ∗ dutyTok ER (sCell1 c) 0 false)

/-- What device `c`'s body starts from: that at some names, its three credit tokens (its barrier's unit, its two
    receive cells' credit) and the level facts. -/
def start (c : Dev nD) : sProp 𝕄 :=
  iprop((∃ K, ghost m ρ K c) ∗ cred (tallyAt (barCell c) () 1) ∗ cred (tallyAt (rCell0 c) () N) ∗ cred (tallyAt (rCell1 c) () N) ∗ levAts L lv)

def Φ₀ (c : Dev nD) : sProp 𝕄 := iprop(start m ρ c ∗ ∃ f, scrPts c f)
/-- After the point: the landing buffer whole again, the four own cells at zero, closed (the barrier cell is the
    runtime's: nothing to hand back). -/
def Φ₁ (c : Dev nD) : sProp 𝕄 :=
  iprop((∃ f, scrPts c f) ∗ semVal (sCell0 c) 0 ∗ semVal (sCell1 c) 0 ∗ semVal (rCell0 c) 0 ∗ semVal (rCell1 c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

omit [FloatOps F] in
theorem D_disj (c : Dev nD) : Disjoint (D0 c) (D1 c) := by
  show Disjoint ((View.whole cc0_scratch0).slice rT).set ((View.whole cc0_scratch0).slice rB).set
  rw [View.set_slice_whole, View.set_slice_whole]
  exact Rect.unit_disjoint 0 (Or.inl (by decide))
omit [FloatOps F] in
theorem D1_sub (c : Dev nD) : D1 c ⊆ Finset.univ \ D0 c :=
  fun i hi => Finset.mem_sdiff.mpr ⟨Finset.mem_univ _, fun h0 => Finset.disjoint_left.mp (D_disj c) h0 hi⟩

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.Kernel.RS

end
-- ==== Proof.KernelBody.lean ====
/-
  One device's body of the exchange, stepped from the protocol's ghost state: the signal to the partner, the barrier
  wait (the partner's landing buffer arrives), the two copies (each lent a share of its source rows and given its
  destination rows), the device's own column half stored, each receive wait followed by the addition of the landed
  rows, the two send waits (the lent shares return), the cells closed and both buffers put together again.
-/
import proofs.«900472_g7700000000000473_dist_rs_v7x_xyz2x2x2_y_m256_n256_f32_1_alg».proof.Proof.KernelProto

noncomputable section

namespace Cert.Kernel.RS

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Fin 5 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 1) ∗ cred (tallyAt (rCell0 c) () N) ∗ cred (tallyAt (rCell1 c) () N) ∗ levAts L lv ∗ ∃ f, scrPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

omit [FloatOps F] in
theorem hz : (![0, 0] : Fin 2 → Nat) = fun _ => 0 := funext fun a => by fin_cases a <;> rfl
omit [FloatOps F] in
theorem write_out (f w : (cc0_stg1_0 : Ref sig .tc).ty.Contents (Elt F)) :
    ((oM : Memref sig .tc .vmem S256x256 .f32).access rO : View sig .tc _ _ _).write (Elt F) f w Finset.univ = w :=
  Memref.write_access_unit_zero_univ (Elt F) cc0_stg1_0 hz _ f w

omit [FloatOps F] in
theorem read_d0 (c : Dev nD) (fd : Buf (Elt F) ((dst0 : Memref sig .tc .vmem S128x256 .f32).view.loc (c : Thread nD τ))) (w : S128x256.Idx → Elt F .f32) :
    ((rM : Memref sig .tc .vmem S256x256 .f32).access rT : View sig .tc _ _ _).read (Elt F)
      ((dst0 : Memref sig .tc .vmem S128x256 .f32).view.write (Elt F) fd w Finset.univ) = w :=
  View.read_write_univ _ _
omit [FloatOps F] in
theorem read_d1 (c : Dev nD) (fd : Buf (Elt F) ((dst1 : Memref sig .tc .vmem S128x256 .f32).view.loc (c : Thread nD τ))) (w : S128x256.Idx → Elt F .f32) :
    ((rM : Memref sig .tc .vmem S256x256 .f32).access rB : View sig .tc _ _ _).read (Elt F)
      ((dst1 : Memref sig .tc .vmem S128x256 .f32).view.write (Elt F) fd w Finset.univ) = w :=
  View.read_write_univ _ _

omit [FloatOps F] in
/-- The barrier duty's payload on the partner's cell, spelt as the points-to it is: this device's landing buffer. -/
theorem payload_bar_peer (c : Dev nD) (d : Bool) : (sched (F := F) m ρ).payload (barCell (peer c)) 0 d
    = iprop(∃ f, ((rM : Memref sig .tc .vmem S256x256 .f32).view.loc (c : Thread nD τ) ↦[(rM : Memref sig .tc .vmem S256x256 .f32).view.set]{fullShare} f)) := by
  rw [payload_bar]; unfold barPay scrPts; rw [peer_peer]

attribute [local sl_rounds] duties_bar duties_s0 duties_s1 duties_r0 duties_r1 amount_bar amount_s0 amount_s1 amount_r0 amount_r1
  expect_bar expect_s0 expect_s1 expect_r0 expect_r1 payload_bar_peer payload_s0 payload_s1 payload_r0 payload_r1
attribute [local sl_canon] dev1_eq dev2_eq dev3_eq

/-- The first copy, addressed to `n = peer c` (substituted, not rewritten): lent the share `qA` of its source rows, given
    rows 0–127 of the partner's landing buffer. -/
theorem wp_send0 (c n : Dev nD) (hn : n = peer c)
    {hsc : (dst0 : Memref sig (Dev.tc n : Thread nD τ).2.kind .vmem S128x256 .f32).view.ref.isScScratch = false}
    {hsrc : (src0 c).view.WordExact} {hdst : (dst0 : Memref sig .tc .vmem S128x256 .f32).view.WordExact}
    {hsem : DmaTarget.Typed .vmem (.dma rS0) (.remote (Dev.tc n : Thread nD τ) (dst0 : Memref sig .tc .vmem S128x256 .f32) (.dma sS0) hsc)}
    {α : Type} {Q : α → sProp 𝕄} {k : PUnit → Prog (TpuEff nD τ sig (Elt F) Λ₀ .tc) α}
    (fn : Buf (Elt F) ((dst0 : Memref sig .tc .vmem S128x256 .f32).view.loc (peer c : Thread nD τ))) (W : Waits sig Unit) :
    iprop(cellInv ER (sched m ρ) (K (c, 1)) (sCell0 c) ∗ cellInv ER (sched m ρ) (K (peer c, 3)) (rCell0 (peer c))
        ∗ ((src0 c).view.loc (c : Thread nD τ) ↦[(src0 c).view.set]{qA} xstg m ρ c)
        ∗ ((dst0 : Memref sig .tc .vmem S128x256 .f32).view.loc (peer c : Thread nD τ) ↦[(dst0 : Memref sig .tc .vmem S128x256 .f32).view.set]{fullShare} fn)
        ∗ owes (c : Thread nD τ) (tallyAt (rCell1 (peer c)) () N + tallyAt (rCell0 (peer c)) () N) W
        ∗ dutyTok ER (sCell0 c) 0 false ∗ reached ER (sCell0 c) 0
        ∗ dutyTok ER (rCell0 (peer c)) 0 false ∗ reached ER (rCell0 (peer c)) 0)
      ⊢ iprop(((cred (tallyAt (sCell0 c) () N) ∗ owes (c : Thread nD τ) (tallyAt (rCell1 (peer c)) () N) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (src0 c) (.remote (Dev.tc n : Thread nD τ) dst0 (.dma sS0) hsc) (.dma rS0) hsrc hdst hsem) k) Q) := by
  subst hn
  exact Rounds.wp_send_pointsTo 𝒱₀ ER (sched m ρ) (c : Thread nD τ) none (c' := (peer c : Thread nD τ)) (src := src0 c) (dst := dst0) (q := qA)
    (fs := xstg m ρ c) (κ₁ := K (c, 1)) (κ₂ := K (peer c, 3))
    (r₁ := 0) (r₂ := 0) (d₁ := false) (d₂ := false) (fd := fn)
    (by rw [duties_s0]; exact Finset.mem_singleton_self _) (by rw [duties_r0]; exact Finset.mem_singleton_self _)
    () () N rfl (amount_s0 m ρ c false) (amount_r0 m ρ (peer c) false) (tallyAt (rCell1 (peer c)) () N) rfl (W := W)
    (by rw [payload_s0]; exact BI.Entails.refl _)
    (by rw [payload_r0]; unfold recvPay0 got0; rw [peer_peer]; iintro H; iexists fn; iexact H)

/-- The second copy: lent the share `qB`, given rows 128–255 of the partner's landing buffer, and carrying back the part of
    that buffer outside both destinations. -/
theorem wp_send1 (c n : Dev nD) (hn : n = peer c)
    {hsc : (dst1 : Memref sig (Dev.tc n : Thread nD τ).2.kind .vmem S128x256 .f32).view.ref.isScScratch = false}
    {hsrc : (src1 c).view.WordExact} {hdst : (dst1 : Memref sig .tc .vmem S128x256 .f32).view.WordExact}
    {hsem : DmaTarget.Typed .vmem (.dma rS1) (.remote (Dev.tc n : Thread nD τ) (dst1 : Memref sig .tc .vmem S128x256 .f32) (.dma sS1) hsc)}
    {α : Type} {Q : α → sProp 𝕄} {k : PUnit → Prog (TpuEff nD τ sig (Elt F) Λ₀ .tc) α}
    (fn : Buf (Elt F) ((dst1 : Memref sig .tc .vmem S128x256 .f32).view.loc (peer c : Thread nD τ))) (W : Waits sig Unit) :
    iprop(cellInv ER (sched m ρ) (K (c, 2)) (sCell1 c) ∗ cellInv ER (sched m ρ) (K (peer c, 4)) (rCell1 (peer c))
        ∗ ((src1 c).view.loc (c : Thread nD τ) ↦[(src1 c).view.set]{qB} xstg m ρ c)
        ∗ (((dst1 : Memref sig .tc .vmem S128x256 .f32).view.loc (peer c : Thread nD τ) ↦[(dst1 : Memref sig .tc .vmem S128x256 .f32).view.set]{fullShare} fn)
            ∗ ((dst1 : Memref sig .tc .vmem S128x256 .f32).view.loc (peer c : Thread nD τ) ↦[(Finset.univ \ D0 (peer c)) \ D1 (peer c)]{fullShare} fn))
        ∗ owes (c : Thread nD τ) (tallyAt (rCell1 (peer c)) () N) W
        ∗ dutyTok ER (sCell1 c) 0 false ∗ reached ER (sCell1 c) 0
        ∗ dutyTok ER (rCell1 (peer c)) 0 false ∗ reached ER (rCell1 (peer c)) 0)
      ⊢ iprop(((cred (tallyAt (sCell1 c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (src1 c) (.remote (Dev.tc n : Thread nD τ) dst1 (.dma sS1) hsc) (.dma rS1) hsrc hdst hsem) k) Q) := by
  subst hn
  exact Rounds.wp_send_pointsTo_with 𝒱₀ ER (sched m ρ) (c : Thread nD τ) none (c' := (peer c : Thread nD τ)) (src := src1 c) (dst := dst1) (q := qB)
    (fs := xstg m ρ c) (κ₁ := K (c, 2)) (κ₂ := K (peer c, 4))
    (r₁ := 0) (r₂ := 0) (d₁ := false) (d₂ := false) (fd := fn)
    (by rw [duties_s1]; exact Finset.mem_singleton_self _) (by rw [duties_r1]; exact Finset.mem_singleton_self _)
    () () N rfl (amount_s1 m ρ c false) (amount_r1 m ρ (peer c) false) 0 (by rw [zero_add]) (W := W)
    (by rw [payload_s1]; exact BI.Entails.refl _)
    (by rw [payload_r1]; unfold recvPay1 got1; rw [peer_peer]; iintro H; iexists fn; iexact H)

set_option maxHeartbeats 3200000 in
/-- The body, stepped from `bodyPre` one rule per effect in program order, to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton]; unfold k0_part1_skel k0_part2_skel k0_part3_skel
  simp only [semSignalWord, semWaitWord, Prog.lift, Prog.bind_op, Prog.bind_ret, Prog.pure_eq_ret, Prog.bind_assoc, wp_deviceId]
  simp only [slice_s0, slice_s1, slice_r0, slice_r1]
  unfold bodyPre ghost invs
  iintro ⟨⟨⟨⟨⟨#HIbar, #HIs0, #HIs1, #HIr0, #HIr1, #HIbarP, #HIr0P, #HIr1P⟩, HatB, HatS0, HatS1, HatR0, HatR1, #HrBP, #HrR0P, #HrR1P, #HrS0, #HrS1,
      HtBP, HtR0P, HtR1P, HtS0, HtS1⟩, HcB, HcR0, HcR1, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀ Oa scrPts
  -- the two staging buffers restated through their memrefs' views
  ihave Hx' := (Entails.of_eq (show ((((c : Thread nD τ).loc cc0_stg0_0) ↦{fullShare} xstg m ρ c : sProp 𝕄))
      = ((xM : Memref sig .tc .vmem S1x256x512 .f32).view.loc (c : Thread nD τ) ↦[(xM : Memref sig .tc .vmem S1x256x512 .f32).view.set]{fullShare} xstg m ρ c) from by rw [View.set_whole])) $$ Hx
  ihave Hout' := (Entails.of_eq (show ((((c : Thread nD τ).loc cc0_stg1_0) ↦{fullShare} g1 : sProp 𝕄))
      = ((oM : Memref sig .tc .vmem S256x256 .f32).view.loc (c : Thread nD τ) ↦[(oM : Memref sig .tc .vmem S256x256 .f32).view.set]{fullShare} g1) from by rw [View.set_whole])) $$ Hout
  -- at its barrier wait the device owes its partner's two receive credits only: above its barrier cell
  have hmw : (levAts L lv : sProp 𝕄) ⊢ MayWait (c : Thread nD τ) (.reg barS) () (tallyAt (rCell1 (peer c)) () N + tallyAt (rCell0 (peer c)) () N) := mayWait_bar c
  -- the signal to the partner's barrier cell (its one duty, with this device's landing buffer) and the wait on its own
  -- (the partner's landing buffer comes with it)
  sl_exec (disch := simp only [dev1_eq, dev2_eq, dev3_eq])
  ihave Hp := (Entails.of_eq (show (sched m ρ).payload (barCell c) 0 false = (iprop(∃ f, scrPts (peer c) f) : sProp 𝕄) from payload_bar m ρ c false)) $$ HatB_pay1
  icases Hp with ⟨%fn, HscrN⟩
  ihave Hx := (Entails.of_eq (show ((xM : Memref sig .tc .vmem S1x256x512 .f32).view.loc (c : Thread nD τ) ↦[(xM : Memref sig .tc .vmem S1x256x512 .f32).view.set]{fullShare} xstg m ρ c : sProp 𝕄)
      = (((c : Thread nD τ).loc cc0_stg0_0) ↦{fullShare} xstg m ρ c) from by rw [View.set_whole])) $$ Hx'
  ihave Hout := (Entails.of_eq (show ((oM : Memref sig .tc .vmem S256x256 .f32).view.loc (c : Thread nD τ) ↦[(oM : Memref sig .tc .vmem S256x256 .f32).view.set]{fullShare} g1 : sProp 𝕄)
      = (((c : Thread nD τ).loc cc0_stg1_0) ↦{fullShare} g1) from by rw [View.set_whole])) $$ Hout'
  -- the partner's landing buffer cut into the two destinations and the rest
  unfold scrPts; rw [scr_set]
  ihave Hsp := (pointsTo_split_subset (Finset.subset_univ (D0 (peer c)))).1 $$ HscrN
  icases Hsp with ⟨Hn0, Hnr⟩
  ihave Hsp := (pointsTo_split_subset (D1_sub (peer c))).1 $$ Hnr
  icases Hsp with ⟨Hn1, Hnl⟩
  -- the staged input cut into three shares, two of them restricted to the copies' source rows
  ihave Hsh := (pointsTo_share (PosShare.mem_left_op_right fullShare)).1 $$ Hx
  icases Hsh with ⟨HxA, HxR⟩
  ihave Hsh := (pointsTo_share (PosShare.mem_left_op_right fullShare.right)).1 $$ HxR
  icases Hsh with ⟨HxB, HxC⟩
  ihave Hsp := (pointsTo_split_subset (Finset.subset_univ (src0 c).view.set)).1 $$ HxA
  icases Hsp with ⟨HxA0, HxA1⟩
  ihave Hsp := (pointsTo_split_subset (Finset.subset_univ (src1 c).view.set)).1 $$ HxB
  icases Hsp with ⟨HxB0, HxB1⟩
  -- the two copies
  iapply (wp_send0 m ρ K c (peer c) rfl fn _) $$ [HxA0 Hn0 HO HtS0 HtR0P]
  · isplitr; · iexact HIs0
    isplitr; · iexact HIr0P
    isplitl [HxA0]; · iexact HxA0
    isplitl [Hn0]; · iexact Hn0
    isplitl [HO]; · iexact HO
    isplitl [HtS0]; · iexact HtS0
    isplitr; · iexact HrS0
    isplitl [HtR0P]; · iexact HtR0P
    iexact HrR0P
  iintro ⟨HcS0, HO⟩
  iapply (wp_send1 m ρ K c _ (dev3_eq c) fn _) $$ [HxB0 Hn1 Hnl HO HtS1 HtR1P]
  · isplitr; · iexact HIs1
    isplitr; · iexact HIr1P
    isplitl [HxB0]; · iexact HxB0
    isplitl [Hn1 Hnl]
    · isplitl [Hn1]; · iexact Hn1
      iexact Hnl
    isplitl [HO]; · iexact HO
    isplitl [HtS1]; · iexact HtS1
    isplitr; · iexact HrS1
    isplitl [HtR1P]; · iexact HtR1P
    iexact HrR1P
  iintro ⟨HcS1, HO⟩
  -- the device's own column half, loaded under the third share, and stored
  iapply (wp_load 𝒱₀ (c : Thread nD τ) none Set.univ (m := xM) (Finset.subset_univ _)) $$ HxC; iintro HxC
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [write_out]
  -- the wait on receive cell 0: rows 0–127 of the landing buffer, holding the partner's rows
  iapply (Rounds.wp_wait_rest_token 𝒱₀ ER (sched m ρ) (c : Thread nD τ) none (κ := K (c, 3))
      (wpE_waitDma2_eq 𝒱₀ (c : Thread nD τ) none Set.univ) (Set.mem_univ _) () (O := 0) (R := 0) (m := 0) (T := ∅)
      (by rw [Nat.zero_add, expect_r0])) $$ [HcR0 HO HatR0]
  · isplitr; · iexact HIr0
    isplitl [HcR0]; · iexact HcR0
    isplitl [HO]; · iexact HO
    isplitr; · rw [MayWait_zero]; iempintro
    iexact HatR0
  iintro ⟨HO, HatR0, -, Hpay⟩
  ihave Hr := (Entails.of_eq (rest_r0 m ρ c)) $$ Hpay
  unfold recvPay0
  icases Hr with ⟨%fd0, Hd0⟩
  -- rows 0–127: the kept rows plus the landed rows
  iapply (wp_load 𝒱₀ (c : Thread nD τ) none Set.univ (m := oM) (Finset.subset_univ _)) $$ Hout; iintro Hout
  iapply (wp_load_rect 𝒱₀ (c : Thread nD τ) none Set.univ (m := rM) (r := rT) (Finset.Subset.refl _)) $$ Hd0; iintro Hd0
  rw [read_d0]
  iapply (wp_load 𝒱₀ (c : Thread nD τ) none Set.univ (m := oM) (Finset.subset_univ _)) $$ Hout; iintro Hout
  iapply (wp_store 𝒱₀ (c : Thread nD τ) none Set.univ (m := oM) (r := rT) (Mk := Finset.univ) (Finset.subset_univ _)) $$ Hout; iintro Hout
  -- the wait on receive cell 1: rows 128–255, and the rest of the landing buffer
  iapply (Rounds.wp_wait_rest_token 𝒱₀ ER (sched m ρ) (c : Thread nD τ) none (κ := K (c, 4))
      (wpE_waitDma2_eq 𝒱₀ (c : Thread nD τ) none Set.univ) (Set.mem_univ _) () (O := 0) (R := 0) (m := 0) (T := ∅)
      (by rw [Nat.zero_add, expect_r1])) $$ [HcR1 HO HatR1]
  · isplitr; · iexact HIr1
    isplitl [HcR1]; · iexact HcR1
    isplitl [HO]; · iexact HO
    isplitr; · rw [MayWait_zero]; iempintro
    iexact HatR1
  iintro ⟨HO, HatR1, -, Hpay⟩
  ihave Hr := (Entails.of_eq (rest_r1 m ρ c)) $$ Hpay
  unfold recvPay1
  icases Hr with ⟨%fd1, Hd1, Hdl⟩
  iapply (wp_load 𝒱₀ (c : Thread nD τ) none Set.univ (m := oM) (Finset.subset_univ _)) $$ Hout; iintro Hout
  iapply (wp_load_rect 𝒱₀ (c : Thread nD τ) none Set.univ (m := rM) (r := rB) (Finset.Subset.refl _)) $$ Hd1; iintro Hd1
  rw [read_d1]
  iapply (wp_load 𝒱₀ (c : Thread nD τ) none Set.univ (m := oM) (Finset.subset_univ _)) $$ Hout; iintro Hout
  iapply (wp_store 𝒱₀ (c : Thread nD τ) none Set.univ (m := oM) (r := rB) (Mk := Finset.univ) (Finset.subset_univ _)) $$ Hout; iintro Hout
  -- the waits on the two send cells: the lent shares of the source rows return
  iapply (Rounds.wp_wait_rest_token 𝒱₀ ER (sched m ρ) (c : Thread nD τ) none (κ := K (c, 1))
      (wpE_waitDma2_eq 𝒱₀ (c : Thread nD τ) none Set.univ) (Set.mem_univ _) () (O := 0) (R := 0) (m := 0) (T := ∅)
      (by rw [Nat.zero_add, expect_s0])) $$ [HcS0 HO HatS0]
  · isplitr; · iexact HIs0
    isplitl [HcS0]; · iexact HcS0
    isplitl [HO]; · iexact HO
    isplitr; · rw [MayWait_zero]; iempintro
    iexact HatS0
  iintro ⟨HO, HatS0, -, Hpay⟩
  ihave HxA0 := (Entails.of_eq (rest_s0 m ρ c)) $$ Hpay
  iapply (Rounds.wp_wait_rest_token 𝒱₀ ER (sched m ρ) (c : Thread nD τ) none (κ := K (c, 2))
      (wpE_waitDma2_eq 𝒱₀ (c : Thread nD τ) none Set.univ) (Set.mem_univ _) () (O := 0) (R := 0) (m := 0) (T := ∅)
      (by rw [Nat.zero_add, expect_s1])) $$ [HcS1 HO HatS1]
  · isplitr; · iexact HIs1
    isplitl [HcS1]; · iexact HcS1
    isplitl [HO]; · iexact HO
    isplitr; · rw [MayWait_zero]; iempintro
    iexact HatS1
  iintro ⟨HO, HatS1, -, Hpay⟩
  ihave HxB0 := (Entails.of_eq (rest_s1 m ρ c)) $$ Hpay
  unfold sendPay0 sendPay1
  -- the four own cells close: their counters at zero are the core's again
  imod (Rounds.cell_close ER (sched m ρ) (Set.mem_univ (K (c, 1))) (fun h => h) (R := 0 + 1) (duties_later m ρ (sCell0 c))) $$ [HatS0] with HzS0
  · isplitr; · iexact HIs0
    iexact HatS0
  imod (Rounds.cell_close ER (sched m ρ) (Set.mem_univ (K (c, 2))) (fun h => h) (R := 0 + 1) (duties_later m ρ (sCell1 c))) $$ [HatS1] with HzS1
  · isplitr; · iexact HIs1
    iexact HatS1
  imod (Rounds.cell_close ER (sched m ρ) (Set.mem_univ (K (c, 3))) (fun h => h) (R := 0 + 1) (duties_later m ρ (rCell0 c))) $$ [HatR0] with HzR0
  · isplitr; · iexact HIr0
    iexact HatR0
  imod (Rounds.cell_close ER (sched m ρ) (Set.mem_univ (K (c, 4))) (fun h => h) (R := 0 + 1) (duties_later m ρ (rCell1 c))) $$ [HatR1] with HzR1
  · isplitr; · iexact HIr1
    iexact HatR1
  -- the staged input put together again: each lent share with what was cut off it, then the three shares
  ihave HxA := (pointsTo_split_subset (ℓ := (c : Thread nD τ).loc cc0_stg0_0) (q := qA) (f := xstg m ρ c) (Finset.subset_univ (src0 c).view.set)).2 $$ [HxA0 HxA1]
  · isplitl [HxA0]; · iexact HxA0
    iexact HxA1
  ihave HxB := (pointsTo_split_subset (ℓ := (c : Thread nD τ).loc cc0_stg0_0) (q := qB) (f := xstg m ρ c) (Finset.subset_univ (src1 c).view.set)).2 $$ [HxB0 HxB1]
  · isplitl [HxB0]; · iexact HxB0
    iexact HxB1
  ihave HxR := (pointsTo_share (PosShare.mem_left_op_right fullShare.right)).2 $$ [HxB HxC]
  · isplitl [HxB]; · iexact HxB
    iexact HxC
  ihave Hx := (pointsTo_share (PosShare.mem_left_op_right fullShare)).2 $$ [HxA HxR]
  · isplitl [HxA]; · iexact HxA
    iexact HxR
  -- the landing buffer put together again: the second destination with the rest, then the first
  ihave Hj := (pointsTo_join_subset (D1_sub c)) $$ [Hd1 Hdl]
  · isplitl [Hd1]; · iexact Hd1
    iexact Hdl
  ihave Hscr := (pointsTo_join_subset (Finset.subset_univ (D0 c))) $$ [Hd0 Hj]
  · isplitl [Hd0]; · iexact Hd0
    iexact Hj
  rw [wp_ret]; imodintro
  iapply Hk
  unfold bodyPost Φ₁ Dat.owesAt Pipeline.owesWithin
  rw [show (dats m ρ 0 c).owed t₀.succ = 0 from rfl]
  isplitl [Hscr HzS0 HzS1 HzR0 HzR1]
  · isplitl [Hscr]; · iexists _; unfold scrPts; rw [scr_set]; iexact Hscr
    isplitl [HzS0]; · iexact HzS0
    isplitl [HzS1]; · iexact HzS1
    isplitl [HzR0]; · iexact HzR0
    iexact HzR1
  isplitl [HO]
  · iexists (insert (SemLoc.dma sS1, ()) (insert (SemLoc.dma sS0, ()) (insert (SemLoc.dma rS1, ()) (insert (SemLoc.dma rS0, ())
      (insert (SemLoc.reg barS, ()) W)))))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

end Body

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3, H4⟩
      isplitl [H1]; · iexact H1
      isplitl [H2]; · iexact H2
      isplitl [H3]; · iexact H3
      isplitl [H4]; · iexact H4
      iexact Hscr
    isplitl [Ho]; · iexact Ho
    isplitl [Hx] <;> iassumption
  · iintro H; iexact H

end Cert.Kernel.RS

end
-- ==== Proof.KernelLaunch.lean ====
/-
  The launch of the exchange on the eight devices: the five cells of every device allocated at once (the barrier
  semaphore is the runtime's, shared by the two partners, so all devices' cells are allocated under one update), the
  duty tokens dealt to the devices that pay them (a device's barrier token and its two receive tokens go to its
  partner), the launch credit (one barrier unit and two copies' credit per device, all owed by its partner), and the
  run: every fair execution terminates, the input array is unchanged, and the result array of device `c` ends as
  `outAt c`.
-/
import proofs.«900472_g7700000000000473_dist_rs_v7x_xyz2x2x2_y_m256_n256_f32_1_alg».proof.Proof.KernelBody

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 5 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def xCells : Finset (GSem nD τ sig) := Finset.univ.map ⟨kcell, kcell_injective⟩

/-- A device's own cells' duty tokens as minted: one per cell, the duty `false` of round 0. -/
abbrev tokOf (ck : Dev nD × Fin 5) : GSem nD τ sig × ℕ × Bool := (kcell ck, 0, false)
theorem tokOf_injective : Function.Injective (tokOf : Dev nD × Fin 5 → GSem nD τ sig × ℕ × Bool) :=
  fun a b h => kcell_injective (congrArg Prod.fst h)
def xToks : Finset (GSem nD τ sig × ℕ × Bool) := Finset.univ.map ⟨tokOf, tokOf_injective⟩

def u₀ : UU :=
  (initOf (Pipeline.cells cfgs cellOf_inj) (Pipeline.launchToks cfgs cellOf_inj), initOf xCells xToks)

/-- The duty tokens of device `c`'s own cells. -/
def toks (c : Dev nD) : sProp 𝕄 := bigSep Finset.univ fun k : Fin 5 => dutyTok ER (kcell (c, k)) 0 false

/-- What the launch element deals device `c` (the theorem's `G`). -/
def G (c : Dev nD) : sProp 𝕄 :=
  iprop((bigSep Finset.univ fun k : Fin 5 => roundState ER (sched m ρ) (kcell (c, k)) 0)
    ∗ (bigSep Finset.univ fun k : Fin 5 => iprop(atPos ER (kcell (c, k)) 0 ∅ 0 ∗ reached ER (kcell (c, k)) 0)) ∗ toks c)

/-- What the global step makes of it (`G'`). -/
def G' (c : Dev nD) : sProp 𝕄 := iprop(∃ K, ghost m ρ K c)

omit [FloatOps F] in
theorem bigSep_fin5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ

omit [FloatOps F] in
theorem fund_x : BI.own (ER (initOf xCells xToks)) ⊢ (|==> bigSep Finset.univ (G m ρ) : sProp 𝕄) := by
  have hX (Φ : GSem nD τ sig → sProp 𝕄) : bigSep xCells Φ = bigSep Finset.univ fun c : Dev nD => bigSep Finset.univ fun k : Fin 5 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks toks; rw [bigSep_map, bigSep_univ_prod]; rfl
  iintro HX
  imod (Rounds.fund ER (sched m ρ) xCells xToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The four send and receive semaphores are the kernel's own; -/
theorem ownSems0_eq (c : Dev nD) : (Pipeline.ownSems0 (Ix := Unit) (Name := ℕ) (U := UU) (Lvl := ℕ) (Val := Elt F) (τ := τ) osem c : sProp 𝕄)
    = iprop(semVal (sCell0 c) 0 ∗ semVal (sCell1 c) 0 ∗ semVal (rCell0 c) 0 ∗ semVal (rCell1 c) 0) := by
  rw [Pipeline.ownSems0_eq_of_list c osem [0, 1, 2, 3] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_fin5]
  iintro ⟨⟨HS0, HS1, HR0, HR1⟩, HB⟩
  isplitl [HB]; · iexact HB
  isplitl [HS0]; · iexact HS0
  isplitl [HS1]; · iexact HS1
  isplitl [HR0]; · iexact HR0
  iexact HR1

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 5 => semVal (kcell (c, k)) 0) ∗ bigSep Finset.univ fun k : Fin 5 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 5 → ℕ) : sProp 𝕄 :=
  iprop((bigSep Finset.univ fun ck : Dev nD × Fin 5 => cellInv ER (sched m ρ) (K ck) (kcell ck))
    ∗ bigSep Finset.univ fun ck : Dev nD × Fin 5 => reached ER (kcell ck) 0)

instance records_persistent (K : Dev nD × Fin 5 → ℕ) : BI.Persistent (records m ρ K) := by unfold records; infer_instance

omit [FloatOps F] in
theorem inv_at (K : Dev nD × Fin 5 → ℕ) (ck : Dev nD × Fin 5) :
    (bigSep Finset.univ fun ck : Dev nD × Fin 5 => (cellInv ER (sched m ρ) (K ck) (kcell ck) : sProp 𝕄)) ⊢ cellInv ER (sched m ρ) (K ck) (kcell ck) :=
  bigSep_elim (Finset.mem_univ ck)
omit [FloatOps F] in
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop(dutyTok ER (barCell (peer c)) 0 false ∗ dutyTok ER (rCell0 (peer c)) 0 false ∗ dutyTok ER (rCell1 (peer c)) 0 false
    ∗ dutyTok ER (sCell0 c) 0 false ∗ dutyTok ER (sCell1 c) 0 false)
def linear (c : Dev nD) : sProp 𝕄 :=
  iprop((atPos ER (barCell c) 0 ∅ 0 ∗ atPos ER (sCell0 c) 0 ∅ 0 ∗ atPos ER (sCell1 c) 0 ∅ 0 ∗ atPos ER (rCell0 c) 0 ∅ 0 ∗ atPos ER (rCell1 c) 0 ∅ 0) ∗ payToks c)

omit [FloatOps F] in
theorem ghost_intro (K : Dev nD × Fin 5 → ℕ) (c : Dev nD) : iprop(records m ρ K ∗ linear c) ⊢ G' m ρ c := by
  unfold records linear payToks G' ghost invs
  iintro ⟨⟨#HI, #HR⟩, ⟨HaB, HaS0, HaS1, HaR0, HaR1⟩, HtBP, HtR0P, HtR1P, HtS0, HtS1⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (c, 4)); iexact HI
    isplitr; · iapply (inv_at m ρ K (peer c, 0)); iexact HI
    isplitr; · iapply (inv_at m ρ K (peer c, 3)); iexact HI
    iapply (inv_at m ρ K (peer c, 4)); iexact HI
  isplitl [HaB]; · iexact HaB
  isplitl [HaS0]; · iexact HaS0
  isplitl [HaS1]; · iexact HaS1
  isplitl [HaR0]; · iexact HaR0
  isplitl [HaR1]; · iexact HaR1
  isplitr; · iapply (reached_at (F := F) (peer c, 0)); iexact HR
  isplitr; · iapply (reached_at (F := F) (peer c, 3)); iexact HR
  isplitr; · iapply (reached_at (F := F) (peer c, 4)); iexact HR
  isplitr; · iapply (reached_at (F := F) (c, 1)); iexact HR
  isplitr; · iapply (reached_at (F := F) (c, 2)); iexact HR
  isplitl [HtBP]; · iexact HtBP
  isplitl [HtR0P]; · iexact HtR0P
  isplitl [HtR1P]; · iexact HtR1P
  isplitl [HtS0]; · iexact HtS0
  iexact HtS1

omit [FloatOps F] in
/-- The tokens dealt across each pair: a device's barrier token and its two receive tokens go to its partner. -/
theorem toks_around : (bigSep Finset.univ fun c : Dev nD => (toks c : sProp 𝕄)) ⊢ bigSep Finset.univ fun c : Dev nD => payToks c := by
  unfold toks payToks
  rw [bigSep_congr (s := Finset.univ) (fun (c : Dev nD) _ => bigSep_fin5 (fun k : Fin 5 => (dutyTok ER (kcell (c, k)) 0 false : sProp 𝕄)))]
  rw [bigSep_sep', bigSep_sep', bigSep_sep', bigSep_sep', bigSep_sep', bigSep_sep', bigSep_sep', bigSep_sep',
    bigSep_univ_equiv pe (fun c : Dev nD => (dutyTok ER (kcell (c, 0)) 0 false : sProp 𝕄)),
    bigSep_univ_equiv pe (fun c : Dev nD => (dutyTok ER (kcell (c, 3)) 0 false : sProp 𝕄)),
    bigSep_univ_equiv pe (fun c : Dev nD => (dutyTok ER (kcell (c, 4)) 0 false : sProp 𝕄))]
  iintro ⟨H0, H1, H2, H3, H4⟩
  isplitl [H0]; · iexact H0
  isplitl [H3]; · iexact H3
  isplitl [H4]; · iexact H4
  isplitl [H1]; · iexact H1
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 5 => iprop(∃ κ : ℕ, cellInv ER (sched m ρ) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 5 => (atPos ER (kcell (c, k)) 0 ∅ 0 : sProp 𝕄)) payToks).symm).trans
      (bigSep_mono fun c _ => show _ ⊢ linear c from Entails.of_eq (by unfold linear; rw [bigSep_fin5])))
    isplitl [Hat]; · iexact Hat
    iexact Htk

omit [FloatOps F] in
/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem r0_eq_iff {a b : Dev nD} : Iff (rCell0 a = rCell0 b) (a = b) :=
  ⟨fun h => Fin.ext (congrArg (fun g : GSem nD τ sig => g.1.1.val) h), fun h => h ▸ rfl⟩
omit [FloatOps F] in
theorem r1_eq_iff {a b : Dev nD} : Iff (rCell1 a = rCell1 b) (a = b) :=
  ⟨fun h => Fin.ext (congrArg (fun g : GSem nD τ sig => g.1.1.val) h), fun h => h ▸ rfl⟩
theorem peer_eq_iff {d c : Dev nD} : Iff (c = peer d) (d = peer c) :=
  ⟨fun h => by rw [h, peer_peer], fun h => by rw [h, peer_peer]⟩

omit [FloatOps F] in
/-- What device `d` owes device `c`'s barrier cell: a unit if it is `c`'s partner. -/
theorem owed_bar (d c : Dev nD) : O₀ d (barCell c) () = if d = peer c then 1 else 0 := by
  unfold O₀ Oa
  rw [Pi.add_apply, Finsupp.add_apply, Pi.add_apply, Finsupp.add_apply,
    tallyAt_ne_cell (fun h => r1_ne_bar (congrArg Prod.snd h).symm), tallyAt_ne_cell (fun h => r0_ne_bar (congrArg Prod.snd h).symm),
    tallyAt_apply, Finsupp.zero_apply, Nat.zero_add, Nat.zero_add]
  by_cases h : d = peer c
  · subst h; rw [peer_peer, if_pos ⟨rfl, rfl⟩, if_pos rfl]
  · rw [if_neg (fun ⟨h1, _⟩ => h (peer_eq_iff.mp (bar_eq_iff.mp h1))), if_neg h]

omit [FloatOps F] in
theorem owed_r0 (d c : Dev nD) : O₀ d (rCell0 c) () = if d = peer c then N else 0 := by
  unfold O₀ Oa
  rw [Pi.add_apply, Finsupp.add_apply, Pi.add_apply, Finsupp.add_apply,
    tallyAt_ne_cell (g := rCell1 (peer d)) (g' := rCell0 c) (fun h => r1_ne_r0 (congrArg Prod.snd h).symm),
    tallyAt_ne_cell (g := barCell (peer d)) (g' := rCell0 c) (fun h => r0_ne_bar (congrArg Prod.snd h)),
    tallyAt_apply, Finsupp.zero_apply, Nat.zero_add, Nat.add_zero]
  by_cases h : d = peer c
  · subst h; rw [peer_peer, if_pos ⟨rfl, rfl⟩, if_pos rfl]
  · rw [if_neg (fun ⟨h1, _⟩ => h (peer_eq_iff.mp (r0_eq_iff.mp h1))), if_neg h]

omit [FloatOps F] in
theorem owed_r1 (d c : Dev nD) : O₀ d (rCell1 c) () = if d = peer c then N else 0 := by
  unfold O₀ Oa
  rw [Pi.add_apply, Finsupp.add_apply, Pi.add_apply, Finsupp.add_apply,
    tallyAt_ne_cell (g := rCell0 (peer d)) (g' := rCell1 c) (fun h => r1_ne_r0 (congrArg Prod.snd h)),
    tallyAt_ne_cell (g := barCell (peer d)) (g' := rCell1 c) (fun h => r1_ne_bar (congrArg Prod.snd h)),
    tallyAt_apply, Finsupp.zero_apply, Nat.add_zero, Nat.add_zero]
  by_cases h : d = peer c
  · subst h; rw [peer_peer, if_pos ⟨rfl, rfl⟩, if_pos rfl]
  · rw [if_neg (fun ⟨h1, _⟩ => h (peer_eq_iff.mp (r1_eq_iff.mp h1))), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_r0 (c : Dev nD) :
    tallyOn (rCell0 c) (launchCredit (Pipeline.owing O₀) 0 (rCell0 c)) = (tallyAt (rCell0 c) () N : CellTallies nD τ sig Unit) := by
  unfold tallyAt; refine congrArg _ (Finsupp.ext fun u => ?_); cases u
  rw [Pipeline.launchCredit_owing, Finsupp.single_eq_same, Finset.sum_congr rfl fun d _ => owed_r0 d c,
    Finset.sum_ite_eq' Finset.univ (peer c) fun _ => N, if_pos (Finset.mem_univ _)]

omit [FloatOps F] in
theorem launch_r1 (c : Dev nD) :
    tallyOn (rCell1 c) (launchCredit (Pipeline.owing O₀) 0 (rCell1 c)) = (tallyAt (rCell1 c) () N : CellTallies nD τ sig Unit) := by
  unfold tallyAt; refine congrArg _ (Finsupp.ext fun u => ?_); cases u
  rw [Pipeline.launchCredit_owing, Finsupp.single_eq_same, Finset.sum_congr rfl fun d _ => owed_r1 d c,
    Finset.sum_ite_eq' Finset.univ (peer c) fun _ => N, if_pos (Finset.mem_univ _)]

omit [FloatOps F] in
theorem creds (c : Dev nD) :
    (Pipeline.launchCred O₀ c : sProp 𝕄) ⊢ iprop(cred (tallyAt (barCell c) () 1) ∗ cred (tallyAt (rCell0 c) () N) ∗ cred (tallyAt (rCell1 c) () N)) := by
  unfold Pipeline.launchCred
  rw [bigSep_univ_at _ (SemLoc.reg barS), launch_bar]
  refine sep_mono_right ?_
  rw [bigSep_erase (i := SemLoc.dma rS0) (Finset.mem_erase.mpr ⟨r0_ne_bar, Finset.mem_univ _⟩), launch_r0]
  refine sep_mono_right ?_
  rw [← launch_r1]
  exact bigSep_elim (Finset.mem_erase.mpr ⟨r1_ne_r0, Finset.mem_erase.mpr ⟨r1_ne_bar, Finset.mem_univ _⟩⟩)

/-! ### The theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN0, HN1⟩
  imodintro
  unfold start G'
  isplitl
  · isplitl [HG]; · iexact HG
    isplitl [H1]; · iexact H1
    isplitl [HN0]; · iexact HN0
    isplitl [HN1]; · iexact HN1
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; rw [scrPts_eq]; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨⟨%f, Hr⟩, HzS0, HzS1, HzR0, HzR1⟩
  isplitr; · iempintro
  isplitl [HzS0 HzS1 HzR0 HzR1]
  · isplitl [HzS0]; · iexact HzS0
    isplitl [HzS1]; · iexact HzS1
    isplitl [HzR0]; · iexact HzR0
    iexact HzR1
  iexists f; rw [← scrPts_eq]; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: every weakly fair
    execution of @main — the partners handshaking on the runtime's barrier semaphore, then copying their halves across —
    terminates, and every final state has each device's two arrays at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_x m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.RS.run_main' depends on axioms: [propext, Classical.choice, Quot.sound] -/
#guard_msgs in #print axioms run_main

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array's one block — the whole array — after the run is what the body left in the staging buffer. -/
theorem finalA_o (c : Dev nD) : finalA m ρ c (1 : Fin 2) = outAt m ρ c := by
  have hz : (fun a => (win0_1.index (0 : Fin 1)) a * main_v1.ty.shape.size a) = fun _ => 0 :=
    funext fun a => by fin_cases a <;> decide
  have hr := fun f => Memref.read_access_unit_zero (Elt F) main_v1 hz (fun a => by fin_cases a <;> decide) f
  have h : (win0_1.blk (0 : Fin 1)).view.read (Elt F) (finalA m ρ c (1 : Fin 2)) = outAt m ρ c := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  rw [hr] at h
  exact h

end Cert.Kernel.RS

end
-- ==== Proof.KernelIdealProto.lean ====
/-
  A reduce-scatter over the mesh axis y of a 2 × 2 × 2 mesh, in one exchange. Device c (coordinates x, y, z; its
  partner `peer c` differs in y alone) holds the block x[y] of f32[2, 256, 512]. It keeps its own column half
  (columns 256·y … 256·y + 255), sends the other half to its partner in two copies of 128 rows each, into the
  partner's landing buffer, and adds what its partner sent to what it kept: rows 0–127 after the first copy has
  landed, rows 128–255 after the second.

  The protocol, per device, over five semaphore cells of one round each:
    * the barrier cell: one duty, paid by the partner's signal of one unit; it hands over the partner's landing
      buffer (the partner is inside the kernel, so the buffer exists and is the sender's to write);
    * two send cells (one per copy): one duty each, paid by the device's own copy once its source rows are read;
      it returns the share of the source rows lent to the copy;
    * two receive cells (one per copy): one duty each, paid by the partner's copy once the destination rows are
      written; it hands over those rows of the landing buffer holding the partner's source rows (the second also
      returns the rest of the buffer that neither copy touches).
  A device waits on its barrier cell while it still owes its partner the two receive credits: receive cells sit
  above barrier cells, and everything else below, which is the whole deadlock argument.

  This module: the resource algebra, the partner involution, the cells, the contents, the schedule and its tables,
  what each device owes at launch, the levels, and the pipeline's proof data. Stated for any float instance.
-/
import proofs.«900472_g7700000000000473_dist_rs_v7x_xyz2x2x2_y_m256_n256_f32_1_alg».proof.Proof.Gen.KernelIdeal
import proofs.«900472_g7700000000000473_dist_rs_v7x_xyz2x2x2_y_m256_n256_f32_1_alg».proof.Proof.Gen.KernelIdeal.Skeleton
import proofs.«900472_g7700000000000473_dist_rs_v7x_xyz2x2x2_y_m256_n256_f32_1_alg».proof.Proof.Gen.KernelIdeal.Launch
import proofs.«900472_g7700000000000473_dist_rs_v7x_xyz2x2x2_y_m256_n256_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The partner: the device at the other y -/

def peer (c : Dev nD) : Dev nD := ⟨(4 * (c.val / 4) + (c.val % 2) + 2) - 2 * ((c.val / 2) % 2), by have h : c.val < 8 := c.isLt; show _ < 8; omega⟩

theorem peer_peer (c : Dev nD) : peer (peer c) = c := by revert c; decide
theorem peer_ne (c : Dev nD) : peer c ≠ c := by revert c; decide

/-- The kernel's three device chains all name the partner. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)

def pe : Dev nD ≃ Dev nD := ⟨peer, peer, peer_peer, peer_peer⟩

/-! ## The memrefs and cells -/

abbrev xM : Memref sig .tc .vmem S1x256x512 .f32 := Memref.whole cc0_stg0_0
abbrev oM : Memref sig .tc .vmem S256x256 .f32 := Memref.whole cc0_stg1_0
abbrev rM : Memref sig .tc .vmem S256x256 .f32 := Memref.whole cc0_scratch0

/-- The rows of the other column half a device sends: rows 0–127 and rows 128–255. -/
abbrev src0 (c : Dev nD) : Memref sig .tc .vmem S128x256 .f32 :=
  (xM.slice (Rect.unit (s := S1x256x512) (k0_off1 c) S1x128x256.size (k0_off1_inb c)) (fun _ => rfl)).squeeze S128x256 squeezes_S1x128x256_S128x256
abbrev src1 (c : Dev nD) : Memref sig .tc .vmem S128x256 .f32 :=
  (xM.slice (Rect.unit (s := S1x256x512) (k0_off2 c) S1x128x256.size (k0_off2_inb c)) (fun _ => rfl)).squeeze S128x256 squeezes_S1x128x256_S128x256
/-- The rows of the landing buffer they are written to. -/
abbrev dst0 : Memref sig .tc .vmem S128x256 .f32 :=
  rM.slice (Rect.unit (s := S256x256) ![0, 0] S128x256.size inb_S256x256_S128x256_0_0) (fun _ => rfl)
abbrev dst1 : Memref sig .tc .vmem S128x256 .f32 :=
  rM.slice (Rect.unit (s := S256x256) ![128, 0] S128x256.size inb_S256x256_S128x256_128_0) (fun _ => rfl)

abbrev barS : Sem sig := (SemArray.scalar (sig.barrier 0 rfl) : Sems sig S_).sem
abbrev sS0 : DmaSem sig := 2
abbrev sS1 : DmaSem sig := 3
abbrev rS0 : DmaSem sig := 4
abbrev rS1 : DmaSem sig := 5

theorem slice_s0 : ((cc0_scratch1.slice (Rect.unit (s := S2) ![0] ![1] inb_S2_S1_0)).squeeze S_ squeezes_S1_S_).sem = sS0 := rfl
theorem slice_s1 : ((cc0_scratch1.slice (Rect.unit (s := S2) ![1] ![1] inb_S2_S1_1)).squeeze S_ squeezes_S1_S_).sem = sS1 := rfl
theorem slice_r0 : ((cc0_scratch2.slice (Rect.unit (s := S2) ![0] ![1] inb_S2_S1_0)).squeeze S_ squeezes_S1_S_).sem = rS0 := rfl
theorem slice_r1 : ((cc0_scratch2.slice (Rect.unit (s := S2) ![1] ![1] inb_S2_S1_1)).squeeze S_ squeezes_S1_S_).sem = rS1 := rfl

abbrev barCell (c : Dev nD) : GSem nD τ sig := ((c : Thread nD τ), .reg barS)
abbrev sCell0 (c : Dev nD) : GSem nD τ sig := ((c : Thread nD τ), .dma sS0)
abbrev sCell1 (c : Dev nD) : GSem nD τ sig := ((c : Thread nD τ), .dma sS1)
abbrev rCell0 (c : Dev nD) : GSem nD τ sig := ((c : Thread nD τ), .dma rS0)
abbrev rCell1 (c : Dev nD) : GSem nD τ sig := ((c : Thread nD τ), .dma rS1)

/-- The kernel's own (scoped) semaphores as the launch theorem indexes them, -/
abbrev osem : Fin 4 → SemLoc sig := fun | 0 => .dma sS0 | 1 => .dma sS1 | 2 => .dma rS0 | 3 => .dma rS1
/-- and all five of the exchange's, as this proof indexes them: barrier, send 0, send 1, receive 0, receive 1. -/
abbrev csem : Fin 5 → SemLoc sig := fun | 0 => .reg barS | 1 => .dma sS0 | 2 => .dma sS1 | 3 => .dma rS0 | 4 => .dma rS1
abbrev kcell (ck : Dev nD × Fin 5) : GSem nD τ sig := ((ck.1 : Thread nD τ), csem ck.2)

abbrev N : ℕ := (dst0 : Memref sig .tc .vmem S128x256 .f32).view.dmaCredit
theorem N_pos : 0 < N := View.dmaCredit_pos _ (by decide)
theorem N1_eq : (dst1 : Memref sig .tc .vmem S128x256 .f32).view.dmaCredit = N := rfl

/-! ## Contents -/

/-- Device `c`'s staged block of the input. -/
def xstg (c : Dev nD) : (cc0_stg0_0 : Ref sig .tc).ty.Contents (Elt F) :=
  (win0_0.blk (0 : Fin 1)).view.read (Elt F) ((s₀ m ρ).mem ((c : Thread nD τ).loc main_arg0))

/-- What the partner's two copies carry to device `c`: the partner's source rows. -/
def got0 (c : Dev nD) : S128x256.Idx → Elt F .f32 := (src0 (peer c)).view.read (Elt F) (xstg m ρ (peer c))
def got1 (c : Dev nD) : S128x256.Idx → Elt F .f32 := (src1 (peer c)).view.read (Elt F) (xstg m ρ (peer c))

/-- The three shares of the staged input: one lent to each copy, one kept for the device's own load. -/
abbrev qA : PosShare TreeShare := fullShare.left
abbrev qB : PosShare TreeShare := fullShare.right.left
abbrev qC : PosShare TreeShare := fullShare.right.right

abbrev D0 (c : Dev nD) : Finset (Idx ((dst0 : Memref sig .tc .vmem S128x256 .f32).view.loc (c : Thread nD τ))) := (dst0 : Memref sig .tc .vmem S128x256 .f32).view.set
abbrev D1 (c : Dev nD) : Finset (Idx ((dst0 : Memref sig .tc .vmem S128x256 .f32).view.loc (c : Thread nD τ))) := (dst1 : Memref sig .tc .vmem S128x256 .f32).view.set

def scrPts (c : Dev nD) (f : Buf (Elt F) ((rM : Memref sig .tc .vmem S256x256 .f32).view.loc (c : Thread nD τ))) : sProp 𝕄 :=
  (rM : Memref sig .tc .vmem S256x256 .f32).view.loc (c : Thread nD τ) ↦[(rM : Memref sig .tc .vmem S256x256 .f32).view.set]{fullShare} f

/-- What the partner's signal hands device `c`: the partner's landing buffer, whole. -/
def barPay (c : Dev nD) : sProp 𝕄 := iprop(∃ f, scrPts (peer c) f)
/-- What the waits on the send cells return: the shares of the source rows lent to the copies. -/
def sendPay0 (c : Dev nD) : sProp 𝕄 :=
  (src0 c).view.loc (c : Thread nD τ) ↦[(src0 c).view.set]{qA} xstg m ρ c
def sendPay1 (c : Dev nD) : sProp 𝕄 :=
  (src1 c).view.loc (c : Thread nD τ) ↦[(src1 c).view.set]{qB} xstg m ρ c
/-- What the waits on the receive cells hand over: the destination rows, written with the partner's source rows (the
    second with the part of the buffer outside both destinations besides). -/
def recvPay0 (c : Dev nD) : sProp 𝕄 :=
  iprop(∃ fd : Buf (Elt F) ((dst0 : Memref sig .tc .vmem S128x256 .f32).view.loc (c : Thread nD τ)),
    (dst0 : Memref sig .tc .vmem S128x256 .f32).view.loc (c : Thread nD τ) ↦[(dst0 : Memref sig .tc .vmem S128x256 .f32).view.set]{fullShare}
      ((dst0 : Memref sig .tc .vmem S128x256 .f32).view.write (Elt F) fd (got0 m ρ c) Finset.univ))
def recvPay1 (c : Dev nD) : sProp 𝕄 :=
  iprop(∃ fd : Buf (Elt F) ((dst1 : Memref sig .tc .vmem S128x256 .f32).view.loc (c : Thread nD τ)),
    ((dst1 : Memref sig .tc .vmem S128x256 .f32).view.loc (c : Thread nD τ) ↦[(dst1 : Memref sig .tc .vmem S128x256 .f32).view.set]{fullShare}
      ((dst1 : Memref sig .tc .vmem S128x256 .f32).view.write (Elt F) fd (got1 m ρ c) Finset.univ))
    ∗ ((dst1 : Memref sig .tc .vmem S128x256 .f32).view.loc (c : Thread nD τ) ↦[(Finset.univ \ D0 c) \ D1 c]{fullShare} fd))

omit [FloatOps F] in
theorem scr_set : (rM : Memref sig .tc .vmem S256x256 .f32).view.set = Finset.univ := View.set_whole _
omit [FloatOps F] in
theorem scrPts_eq (c : Dev nD) (f : Buf (Elt F) ((c : Thread nD τ).loc cc0_scratch0)) :
    scrPts c f = (((c : Thread nD τ).loc cc0_scratch0) ↦{fullShare} f : sProp 𝕄) := by unfold scrPts; rw [scr_set]

/-! ## The schedule -/

/-- One round, round 0, one duty (`false`) a cell: a barrier cell's of one unit, a send or receive cell's of the
    copy's credit. -/
def sched : Rounds.Schedule (GSem nD τ sig) Bool 𝕄 where
  duties g r := if r = 0 ∧ g.1.2 = .tc ∧ (g.2 = .reg barS ∨ g.2 = .dma sS0 ∨ g.2 = .dma sS1 ∨ g.2 = .dma rS0 ∨ g.2 = .dma rS1) then {false} else ∅
  unitless _ := False
  amount g _ _ := if g.2 = .reg barS then 1 else N
  payload g _ _ :=
    if g.2 = .reg barS then barPay g.1.1
    else if g.2 = .dma rS0 then recvPay0 m ρ g.1.1
    else if g.2 = .dma rS1 then recvPay1 m ρ g.1.1
    else if g.2 = .dma sS0 then sendPay0 m ρ g.1.1
    else if g.2 = .dma sS1 then sendPay1 m ρ g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Bool) :
    BI.Storable (upEmb : UEmb _ 𝕄) ((sched (F := F) m ρ).payload g r d) := by
  show BI.Storable upEmb (if g.2 = .reg barS then barPay g.1.1
    else if g.2 = .dma rS0 then recvPay0 m ρ g.1.1
    else if g.2 = .dma rS1 then recvPay1 m ρ g.1.1
    else if g.2 = .dma sS0 then sendPay0 m ρ g.1.1
    else if g.2 = .dma sS1 then sendPay1 m ρ g.1.1
    else iprop(emp))
  unfold barPay recvPay0 recvPay1 sendPay0 sendPay1 scrPts
  (repeat' split) <;> infer_instance

section Sched
variable (c : Dev nD)

theorem s0_ne_bar : (SemLoc.dma sS0 : SemLoc sig) ≠ .reg barS := fun h => by cases h
theorem s1_ne_bar : (SemLoc.dma sS1 : SemLoc sig) ≠ .reg barS := fun h => by cases h
theorem r0_ne_bar : (SemLoc.dma rS0 : SemLoc sig) ≠ .reg barS := fun h => by cases h
theorem r1_ne_bar : (SemLoc.dma rS1 : SemLoc sig) ≠ .reg barS := fun h => by cases h
theorem r1_ne_r0 : (SemLoc.dma rS1 : SemLoc sig) ≠ .dma rS0 := by decide
theorem s0_ne_r0 : (SemLoc.dma sS0 : SemLoc sig) ≠ .dma rS0 := by decide
theorem s0_ne_r1 : (SemLoc.dma sS0 : SemLoc sig) ≠ .dma rS1 := by decide
theorem s1_ne_r0 : (SemLoc.dma sS1 : SemLoc sig) ≠ .dma rS0 := by decide
theorem s1_ne_r1 : (SemLoc.dma sS1 : SemLoc sig) ≠ .dma rS1 := by decide
theorem s1_ne_s0 : (SemLoc.dma sS1 : SemLoc sig) ≠ .dma sS0 := by decide

omit [FloatOps F] in
theorem duties_bar : (sched (F := F) m ρ).duties (barCell c) 0 = {false} := by dsimp only [sched]; exact if_pos ⟨rfl, rfl, .inl rfl⟩
omit [FloatOps F] in
theorem duties_s0 : (sched (F := F) m ρ).duties (sCell0 c) 0 = {false} := by dsimp only [sched]; exact if_pos ⟨rfl, rfl, .inr (.inl rfl)⟩
omit [FloatOps F] in
theorem duties_s1 : (sched (F := F) m ρ).duties (sCell1 c) 0 = {false} := by dsimp only [sched]; exact if_pos ⟨rfl, rfl, .inr (.inr (.inl rfl))⟩
omit [FloatOps F] in
theorem duties_r0 : (sched (F := F) m ρ).duties (rCell0 c) 0 = {false} := by dsimp only [sched]; exact if_pos ⟨rfl, rfl, .inr (.inr (.inr (.inl rfl)))⟩
omit [FloatOps F] in
theorem duties_r1 : (sched (F := F) m ρ).duties (rCell1 c) 0 = {false} := by dsimp only [sched]; exact if_pos ⟨rfl, rfl, .inr (.inr (.inr (.inr rfl)))⟩
omit [FloatOps F] in
theorem duties_later (g : GSem nD τ sig) : ∀ r, 1 ≤ r → (sched (F := F) m ρ).duties g r = ∅ :=
  fun r hr => by dsimp only [sched]; rw [if_neg fun h => by omega]

omit [FloatOps F] in
theorem amount_bar (d : Bool) : (sched (F := F) m ρ).amount (barCell c) 0 d = 1 := by dsimp only [sched]; exact if_pos rfl
omit [FloatOps F] in
theorem amount_s0 (d : Bool) : (sched (F := F) m ρ).amount (sCell0 c) 0 d = N := by dsimp only [sched]; exact if_neg s0_ne_bar
omit [FloatOps F] in
theorem amount_s1 (d : Bool) : (sched (F := F) m ρ).amount (sCell1 c) 0 d = N := by dsimp only [sched]; exact if_neg s1_ne_bar
omit [FloatOps F] in
theorem amount_r0 (d : Bool) : (sched (F := F) m ρ).amount (rCell0 c) 0 d = N := by dsimp only [sched]; exact if_neg r0_ne_bar
omit [FloatOps F] in
theorem amount_r1 (d : Bool) : (sched (F := F) m ρ).amount (rCell1 c) 0 d = N := by dsimp only [sched]; exact if_neg r1_ne_bar

omit [FloatOps F] in
theorem expect_bar : (sched (F := F) m ρ).expect (barCell c) 0 = 1 := by
  unfold Schedule.expect Schedule.amountOf; rw [duties_bar, Finset.sum_singleton, amount_bar]
omit [FloatOps F] in
theorem expect_s0 : (sched (F := F) m ρ).expect (sCell0 c) 0 = N := by
  unfold Schedule.expect Schedule.amountOf; rw [duties_s0, Finset.sum_singleton, amount_s0]
omit [FloatOps F] in
theorem expect_s1 : (sched (F := F) m ρ).expect (sCell1 c) 0 = N := by
  unfold Schedule.expect Schedule.amountOf; rw [duties_s1, Finset.sum_singleton, amount_s1]
omit [FloatOps F] in
theorem expect_r0 : (sched (F := F) m ρ).expect (rCell0 c) 0 = N := by
  unfold Schedule.expect Schedule.amountOf; rw [duties_r0, Finset.sum_singleton, amount_r0]
omit [FloatOps F] in
theorem expect_r1 : (sched (F := F) m ρ).expect (rCell1 c) 0 = N := by
  unfold Schedule.expect Schedule.amountOf; rw [duties_r1, Finset.sum_singleton, amount_r1]

omit [FloatOps F] in
theorem payload_bar (d : Bool) : (sched (F := F) m ρ).payload (barCell c) 0 d = barPay c := by dsimp only [sched]; rw [if_pos rfl]
omit [FloatOps F] in
theorem payload_r0 (d : Bool) : (sched (F := F) m ρ).payload (rCell0 c) 0 d = recvPay0 m ρ c := by
  dsimp only [sched]; rw [if_neg r0_ne_bar, if_pos rfl]
omit [FloatOps F] in
theorem payload_r1 (d : Bool) : (sched (F := F) m ρ).payload (rCell1 c) 0 d = recvPay1 m ρ c := by
  dsimp only [sched]; rw [if_neg r1_ne_bar, if_neg r1_ne_r0, if_pos rfl]
omit [FloatOps F] in
theorem payload_s0 (d : Bool) : (sched (F := F) m ρ).payload (sCell0 c) 0 d = sendPay0 m ρ c := by
  dsimp only [sched]; rw [if_neg s0_ne_bar, if_neg s0_ne_r0, if_neg s0_ne_r1, if_pos rfl]
omit [FloatOps F] in
theorem payload_s1 (d : Bool) : (sched (F := F) m ρ).payload (sCell1 c) 0 d = sendPay1 m ρ c := by
  dsimp only [sched]; rw [if_neg s1_ne_bar, if_neg s1_ne_r0, if_neg s1_ne_r1, if_neg s1_ne_s0, if_pos rfl]

omit [FloatOps F] in
theorem rest_bar : bigSep ((sched (F := F) m ρ).duties (barCell c) 0 \ ∅) (fun d => (sched (F := F) m ρ).payload (barCell c) 0 d) = barPay c := by
  rw [Finset.sdiff_empty, duties_bar, bigSep_singleton, payload_bar]
omit [FloatOps F] in
theorem rest_s0 : bigSep ((sched (F := F) m ρ).duties (sCell0 c) 0 \ ∅) (fun d => (sched (F := F) m ρ).payload (sCell0 c) 0 d) = sendPay0 m ρ c := by
  rw [Finset.sdiff_empty, duties_s0, bigSep_singleton, payload_s0]
omit [FloatOps F] in
theorem rest_s1 : bigSep ((sched (F := F) m ρ).duties (sCell1 c) 0 \ ∅) (fun d => (sched (F := F) m ρ).payload (sCell1 c) 0 d) = sendPay1 m ρ c := by
  rw [Finset.sdiff_empty, duties_s1, bigSep_singleton, payload_s1]
omit [FloatOps F] in
theorem rest_r0 : bigSep ((sched (F := F) m ρ).duties (rCell0 c) 0 \ ∅) (fun d => (sched (F := F) m ρ).payload (rCell0 c) 0 d) = recvPay0 m ρ c := by
  rw [Finset.sdiff_empty, duties_r0, bigSep_singleton, payload_r0]
omit [FloatOps F] in
theorem rest_r1 : bigSep ((sched (F := F) m ρ).duties (rCell1 c) 0 \ ∅) (fun d => (sched (F := F) m ρ).payload (rCell1 c) 0 d) = recvPay1 m ρ c := by
  rw [Finset.sdiff_empty, duties_r1, bigSep_singleton, payload_r1]

end Sched

/-! ## What each device owes at launch; the levels -/

/-- Device `c` owes its partner's two receive cells the copies' credit and its partner's barrier cell one unit — summed
    so that the signal peels the last summand, the first copy the next, the second copy the first. -/
def Oa (c : Dev nD) : CellTallies nD τ sig Unit := tallyAt (rCell1 (peer c)) () N + tallyAt (rCell0 (peer c)) () N
def O₀ (c : Dev nD) : CellTallies nD τ sig Unit := Oa c + tallyAt (barCell (peer c)) () 1

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if (g.2 = .dma rS0 ∨ g.2 = .dma rS1) then 2 else 0

theorem L_of_ne (g : GSem nD τ sig) (h : g.1.2 ≠ .tc) : L g = ∅ := if_neg h
theorem L_tc (c : Dev nD) (sm : SemLoc sig) : L ((c : Thread nD τ), sm) = {()} := if_pos rfl

theorem Oa_pos {c : Dev nD} {g : GSem nD τ sig} {u : Unit} (h : 0 < Oa c g u) :
    g = rCell1 (peer c) ∨ g = rCell0 (peer c) := by
  unfold Oa at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

theorem O₀_pos {c : Dev nD} {g : GSem nD τ sig} {u : Unit} (h : 0 < O₀ c g u) :
    g = rCell1 (peer c) ∨ g = rCell0 (peer c) ∨ g = barCell (peer c) := by
  unfold O₀ Oa at h
  rw [Pi.add_apply, Finsupp.add_apply, Pi.add_apply, Finsupp.add_apply, tallyAt_apply, tallyAt_apply, tallyAt_apply] at h
  by_contra hn
  rw [not_or, not_or] at hn
  rw [if_neg (fun h' => hn.1 h'.1), if_neg (fun h' => hn.2.1 h'.1), if_neg (fun h' => hn.2.2 h'.1)] at h
  exact Nat.lt_irrefl 0 h

theorem lv_r0 (c : Dev nD) (u : Unit) : lv (rCell0 c) u = 2 := by dsimp only [lv]; rw [if_neg r0_ne_bar, if_pos (Or.inl rfl)]
theorem lv_r1 (c : Dev nD) (u : Unit) : lv (rCell1 c) u = 2 := by dsimp only [lv]; rw [if_neg r1_ne_bar, if_pos (Or.inr rfl)]
theorem lv_bar (c : Dev nD) (u : Unit) : lv (barCell c) u = 1 := by dsimp only [lv]; rw [if_pos rfl]

omit [FloatOps F] in
/-- A staging cell (level 0) may be waited on whatever the device still owes: all of that is above it. -/
theorem mayWait_stage (c : Dev nD) (q : DmaSem sig) (hq0 : SemLoc.dma q ≠ .dma rS0) (hq1 : SemLoc.dma q ≠ .dma rS1) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl <;> exact Finset.mem_singleton_self _)
      (fun p hp => by rw [Finset.mem_singleton.mp hp]; dsimp only [lv]; rw [if_neg (fun h => by cases h), if_neg (fun h => h.elim hq0 hq1)])
      (fun g u hg => by
        rcases O₀_pos hg with rfl | rfl | rfl
        · rw [lv_r1]; decide
        · rw [lv_r0]; decide
        · rw [lv_bar]; decide)
  · rw [MayWait_zero]; iintro -; iempintro

omit [FloatOps F] in
/-- At its barrier wait a device owes its partner's receive credits only: receive cells, above its barrier cell. -/
theorem mayWait_bar (c : Dev nD) :
    (levAts L lv : sProp 𝕄) ⊢ MayWait (c : Thread nD τ) (.reg barS) () (Oa c) :=
  MayOwe.of_cut (L := L) (lev := lv) 1 (fun p hp => by rw [Finset.mem_singleton.mp hp, L_tc]; exact Finset.mem_singleton_self _)
    (fun g u hg => by rcases Oa_pos hg with rfl | rfl <;> exact Finset.mem_singleton_self _)
    (fun p hp => by rw [Finset.mem_singleton.mp hp]; exact le_of_eq (lv_bar c ()))
    (fun g u hg => by
      rcases Oa_pos hg with rfl | rfl
      · rw [lv_r1]; decide
      · rw [lv_r0]; decide)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev r3 (c : Dev nD) : Rect S1x256x512 := Rect.unit (s := S1x256x512) (k0_off3 c) S1x256x256.size (k0_off3_inb c)
abbrev rO : Rect S256x256 := Rect.unit (s := S256x256) ![0, 0] S256x256.size inb_S256x256_S256x256_0_0
abbrev rT : Rect S256x256 := Rect.unit (s := S256x256) ![0, 0] S128x256.size inb_S256x256_S128x256_0_0
abbrev rB : Rect S256x256 := Rect.unit (s := S256x256) ![128, 0] S128x256.size inb_S256x256_S128x256_128_0

/-- The column half device `c` keeps, -/
def mine (c : Dev nD) : (cc0_stg1_0 : Ref sig .tc).ty.Contents (Elt F) :=
  k0_pay1 ((xM : Memref sig .tc .vmem S1x256x512 .f32).view.readAt (Elt F) (r3 c).toLoadRect (xstg m ρ c))
/-- with the partner's rows 0–127 added to its rows 0–127, -/
def out2 (c : Dev nD) : (cc0_stg1_0 : Ref sig .tc).ty.Contents (Elt F) :=
  ((oM : Memref sig .tc .vmem S256x256 .f32).access rT : View sig .tc _ _ _).write (Elt F) (mine m ρ c)
    (k0_pay2 ((oM : Memref sig .tc .vmem S256x256 .f32).view.readAt (Elt F) rT.toLoadRect (mine m ρ c)) (got0 m ρ c)) Finset.univ
/-- and then the partner's rows 128–255 to its rows 128–255: the kernel's result on device `c`. -/
def outAt (c : Dev nD) : (cc0_stg1_0 : Ref sig .tc).ty.Contents (Elt F) :=
  ((oM : Memref sig .tc .vmem S256x256 .f32).access rB : View sig .tc _ _ _).write (Elt F) (out2 m ρ c)
    (k0_pay3 ((oM : Memref sig .tc .vmem S256x256 .f32).view.readAt (Elt F) rB.toLoadRect (out2 m ρ c)) (got1 m ρ c)) Finset.univ

/-- The cells' invariants device `c`'s body opens, under the names `K` the launch allocated them at: its own five, and
    its partner's barrier cell (its signal) and two receive cells (its copies). -/
def invs (K : Dev nD × Fin 5 → ℕ) (c : Dev nD) : sProp 𝕄 :=
  iprop(cellInv ER (sched m ρ) (K (c, 0)) (barCell c) ∗ cellInv ER (sched m ρ) (K (c, 1)) (sCell0 c) ∗ cellInv ER (sched m ρ) (K (c, 2)) (sCell1 c)
    ∗ cellInv ER (sched m ρ) (K (c, 3)) (rCell0 c) ∗ cellInv ER (sched m ρ) (K (c, 4)) (rCell1 c)
    ∗ cellInv ER (sched m ρ) (K (peer c, 0)) (barCell (peer c)) ∗ cellInv ER (sched m ρ) (K (peer c, 3)) (rCell0 (peer c))
    ∗ cellInv ER (sched m ρ) (K (peer c, 4)) (rCell1 (peer c)))

instance invs_persistent (K : Dev nD × Fin 5 → ℕ) (c : Dev nD) : BI.Persistent (invs m ρ K c) := by unfold invs; infer_instance

/-- The exchange's ghost state device `c` starts from: the invariants; its positions at round 0 of its five cells; the
    reached-marks of the cells it pays; the five duty tokens it pays with — its partner's barrier duty, its partner's
    two receive duties, its own two send duties. -/
def ghost (K : Dev nD × Fin 5 → ℕ) (c : Dev nD) : sProp 𝕄 :=
  iprop(invs m ρ K c
    ∗ atPos ER (barCell c) 0 ∅ 0 ∗ atPos ER (sCell0 c) 0 ∅ 0 ∗ atPos ER (sCell1 c) 0 ∅ 0 ∗ atPos ER (rCell0 c) 0 ∅ 0 ∗ atPos ER (rCell1 c) 0 ∅ 0
    ∗ reached ER (barCell (peer c)) 0 ∗ reached ER (rCell0 (peer c)) 0 ∗ reached ER (rCell1 (peer c)) 0 ∗ reached ER (sCell0 c) 0 ∗ reached ER (sCell1 c) 0
    ∗ dutyTok ER (barCell (peer c)) 0 false ∗ dutyTok ER (rCell0 (peer c)) 0 false ∗ dutyTok ER (rCell1 (peer c)) 0 false
    ∗ dutyTok ER (sCell0 c) 0 false ∗ dutyTok ER (sCell1 c) 0 false)

/-- What device `c`'s body starts from: that at some names, its three credit tokens (its barrier's unit, its two
    receive cells' credit) and the level facts. -/
def start (c : Dev nD) : sProp 𝕄 :=
  iprop((∃ K, ghost m ρ K c) ∗ cred (tallyAt (barCell c) () 1) ∗ cred (tallyAt (rCell0 c) () N) ∗ cred (tallyAt (rCell1 c) () N) ∗ levAts L lv)

def Φ₀ (c : Dev nD) : sProp 𝕄 := iprop(start m ρ c ∗ ∃ f, scrPts c f)
/-- After the point: the landing buffer whole again, the four own cells at zero, closed (the barrier cell is the
    runtime's: nothing to hand back). -/
def Φ₁ (c : Dev nD) : sProp 𝕄 :=
  iprop((∃ f, scrPts c f) ∗ semVal (sCell0 c) 0 ∗ semVal (sCell1 c) 0 ∗ semVal (rCell0 c) 0 ∗ semVal (rCell1 c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

omit [FloatOps F] in
theorem D_disj (c : Dev nD) : Disjoint (D0 c) (D1 c) := by
  show Disjoint ((View.whole cc0_scratch0).slice rT).set ((View.whole cc0_scratch0).slice rB).set
  rw [View.set_slice_whole, View.set_slice_whole]
  exact Rect.unit_disjoint 0 (Or.inl (by decide))
omit [FloatOps F] in
theorem D1_sub (c : Dev nD) : D1 c ⊆ Finset.univ \ D0 c :=
  fun i hi => Finset.mem_sdiff.mpr ⟨Finset.mem_univ _, fun h0 => Finset.disjoint_left.mp (D_disj c) h0 hi⟩

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelIdeal.RS

end
-- ==== Proof.KernelIdealBody.lean ====
/-
  One device's body of the exchange, stepped from the protocol's ghost state: the signal to the partner, the barrier
  wait (the partner's landing buffer arrives), the two copies (each lent a share of its source rows and given its
  destination rows), the device's own column half stored, each receive wait followed by the addition of the landed
  rows, the two send waits (the lent shares return), the cells closed and both buffers put together again.
-/
import proofs.«900472_g7700000000000473_dist_rs_v7x_xyz2x2x2_y_m256_n256_f32_1_alg».proof.Proof.KernelIdealProto

noncomputable section

namespace Cert.KernelIdeal.RS

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Fin 5 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 1) ∗ cred (tallyAt (rCell0 c) () N) ∗ cred (tallyAt (rCell1 c) () N) ∗ levAts L lv ∗ ∃ f, scrPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

omit [FloatOps F] in
theorem hz : (![0, 0] : Fin 2 → Nat) = fun _ => 0 := funext fun a => by fin_cases a <;> rfl
omit [FloatOps F] in
theorem write_out (f w : (cc0_stg1_0 : Ref sig .tc).ty.Contents (Elt F)) :
    ((oM : Memref sig .tc .vmem S256x256 .f32).access rO : View sig .tc _ _ _).write (Elt F) f w Finset.univ = w :=
  Memref.write_access_unit_zero_univ (Elt F) cc0_stg1_0 hz _ f w

omit [FloatOps F] in
theorem read_d0 (c : Dev nD) (fd : Buf (Elt F) ((dst0 : Memref sig .tc .vmem S128x256 .f32).view.loc (c : Thread nD τ))) (w : S128x256.Idx → Elt F .f32) :
    ((rM : Memref sig .tc .vmem S256x256 .f32).access rT : View sig .tc _ _ _).read (Elt F)
      ((dst0 : Memref sig .tc .vmem S128x256 .f32).view.write (Elt F) fd w Finset.univ) = w :=
  View.read_write_univ _ _
omit [FloatOps F] in
theorem read_d1 (c : Dev nD) (fd : Buf (Elt F) ((dst1 : Memref sig .tc .vmem S128x256 .f32).view.loc (c : Thread nD τ))) (w : S128x256.Idx → Elt F .f32) :
    ((rM : Memref sig .tc .vmem S256x256 .f32).access rB : View sig .tc _ _ _).read (Elt F)
      ((dst1 : Memref sig .tc .vmem S128x256 .f32).view.write (Elt F) fd w Finset.univ) = w :=
  View.read_write_univ _ _

omit [FloatOps F] in
/-- The barrier duty's payload on the partner's cell, spelt as the points-to it is: this device's landing buffer. -/
theorem payload_bar_peer (c : Dev nD) (d : Bool) : (sched (F := F) m ρ).payload (barCell (peer c)) 0 d
    = iprop(∃ f, ((rM : Memref sig .tc .vmem S256x256 .f32).view.loc (c : Thread nD τ) ↦[(rM : Memref sig .tc .vmem S256x256 .f32).view.set]{fullShare} f)) := by
  rw [payload_bar]; unfold barPay scrPts; rw [peer_peer]

attribute [local sl_rounds] duties_bar duties_s0 duties_s1 duties_r0 duties_r1 amount_bar amount_s0 amount_s1 amount_r0 amount_r1
  expect_bar expect_s0 expect_s1 expect_r0 expect_r1 payload_bar_peer payload_s0 payload_s1 payload_r0 payload_r1
attribute [local sl_canon] dev1_eq dev2_eq dev3_eq

/-- The first copy, addressed to `n = peer c` (substituted, not rewritten): lent the share `qA` of its source rows, given
    rows 0–127 of the partner's landing buffer. -/
theorem wp_send0 (c n : Dev nD) (hn : n = peer c)
    {hsc : (dst0 : Memref sig (Dev.tc n : Thread nD τ).2.kind .vmem S128x256 .f32).view.ref.isScScratch = false}
    {hsrc : (src0 c).view.WordExact} {hdst : (dst0 : Memref sig .tc .vmem S128x256 .f32).view.WordExact}
    {hsem : DmaTarget.Typed .vmem (.dma rS0) (.remote (Dev.tc n : Thread nD τ) (dst0 : Memref sig .tc .vmem S128x256 .f32) (.dma sS0) hsc)}
    {α : Type} {Q : α → sProp 𝕄} {k : PUnit → Prog (TpuEff nD τ sig (Elt F) Λ₀ .tc) α}
    (fn : Buf (Elt F) ((dst0 : Memref sig .tc .vmem S128x256 .f32).view.loc (peer c : Thread nD τ))) (W : Waits sig Unit) :
    iprop(cellInv ER (sched m ρ) (K (c, 1)) (sCell0 c) ∗ cellInv ER (sched m ρ) (K (peer c, 3)) (rCell0 (peer c))
        ∗ ((src0 c).view.loc (c : Thread nD τ) ↦[(src0 c).view.set]{qA} xstg m ρ c)
        ∗ ((dst0 : Memref sig .tc .vmem S128x256 .f32).view.loc (peer c : Thread nD τ) ↦[(dst0 : Memref sig .tc .vmem S128x256 .f32).view.set]{fullShare} fn)
        ∗ owes (c : Thread nD τ) (tallyAt (rCell1 (peer c)) () N + tallyAt (rCell0 (peer c)) () N) W
        ∗ dutyTok ER (sCell0 c) 0 false ∗ reached ER (sCell0 c) 0
        ∗ dutyTok ER (rCell0 (peer c)) 0 false ∗ reached ER (rCell0 (peer c)) 0)
      ⊢ iprop(((cred (tallyAt (sCell0 c) () N) ∗ owes (c : Thread nD τ) (tallyAt (rCell1 (peer c)) () N) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (src0 c) (.remote (Dev.tc n : Thread nD τ) dst0 (.dma sS0) hsc) (.dma rS0) hsrc hdst hsem) k) Q) := by
  subst hn
  exact Rounds.wp_send_pointsTo 𝒱₀ ER (sched m ρ) (c : Thread nD τ) none (c' := (peer c : Thread nD τ)) (src := src0 c) (dst := dst0) (q := qA)
    (fs := xstg m ρ c) (κ₁ := K (c, 1)) (κ₂ := K (peer c, 3))
    (r₁ := 0) (r₂ := 0) (d₁ := false) (d₂ := false) (fd := fn)
    (by rw [duties_s0]; exact Finset.mem_singleton_self _) (by rw [duties_r0]; exact Finset.mem_singleton_self _)
    () () N rfl (amount_s0 m ρ c false) (amount_r0 m ρ (peer c) false) (tallyAt (rCell1 (peer c)) () N) rfl (W := W)
    (by rw [payload_s0]; exact BI.Entails.refl _)
    (by rw [payload_r0]; unfold recvPay0 got0; rw [peer_peer]; iintro H; iexists fn; iexact H)

/-- The second copy: lent the share `qB`, given rows 128–255 of the partner's landing buffer, and carrying back the part of
    that buffer outside both destinations. -/
theorem wp_send1 (c n : Dev nD) (hn : n = peer c)
    {hsc : (dst1 : Memref sig (Dev.tc n : Thread nD τ).2.kind .vmem S128x256 .f32).view.ref.isScScratch = false}
    {hsrc : (src1 c).view.WordExact} {hdst : (dst1 : Memref sig .tc .vmem S128x256 .f32).view.WordExact}
    {hsem : DmaTarget.Typed .vmem (.dma rS1) (.remote (Dev.tc n : Thread nD τ) (dst1 : Memref sig .tc .vmem S128x256 .f32) (.dma sS1) hsc)}
    {α : Type} {Q : α → sProp 𝕄} {k : PUnit → Prog (TpuEff nD τ sig (Elt F) Λ₀ .tc) α}
    (fn : Buf (Elt F) ((dst1 : Memref sig .tc .vmem S128x256 .f32).view.loc (peer c : Thread nD τ))) (W : Waits sig Unit) :
    iprop(cellInv ER (sched m ρ) (K (c, 2)) (sCell1 c) ∗ cellInv ER (sched m ρ) (K (peer c, 4)) (rCell1 (peer c))
        ∗ ((src1 c).view.loc (c : Thread nD τ) ↦[(src1 c).view.set]{qB} xstg m ρ c)
        ∗ (((dst1 : Memref sig .tc .vmem S128x256 .f32).view.loc (peer c : Thread nD τ) ↦[(dst1 : Memref sig .tc .vmem S128x256 .f32).view.set]{fullShare} fn)
            ∗ ((dst1 : Memref sig .tc .vmem S128x256 .f32).view.loc (peer c : Thread nD τ) ↦[(Finset.univ \ D0 (peer c)) \ D1 (peer c)]{fullShare} fn))
        ∗ owes (c : Thread nD τ) (tallyAt (rCell1 (peer c)) () N) W
        ∗ dutyTok ER (sCell1 c) 0 false ∗ reached ER (sCell1 c) 0
        ∗ dutyTok ER (rCell1 (peer c)) 0 false ∗ reached ER (rCell1 (peer c)) 0)
      ⊢ iprop(((cred (tallyAt (sCell1 c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (src1 c) (.remote (Dev.tc n : Thread nD τ) dst1 (.dma sS1) hsc) (.dma rS1) hsrc hdst hsem) k) Q) := by
  subst hn
  exact Rounds.wp_send_pointsTo_with 𝒱₀ ER (sched m ρ) (c : Thread nD τ) none (c' := (peer c : Thread nD τ)) (src := src1 c) (dst := dst1) (q := qB)
    (fs := xstg m ρ c) (κ₁ := K (c, 2)) (κ₂ := K (peer c, 4))
    (r₁ := 0) (r₂ := 0) (d₁ := false) (d₂ := false) (fd := fn)
    (by rw [duties_s1]; exact Finset.mem_singleton_self _) (by rw [duties_r1]; exact Finset.mem_singleton_self _)
    () () N rfl (amount_s1 m ρ c false) (amount_r1 m ρ (peer c) false) 0 (by rw [zero_add]) (W := W)
    (by rw [payload_s1]; exact BI.Entails.refl _)
    (by rw [payload_r1]; unfold recvPay1 got1; rw [peer_peer]; iintro H; iexists fn; iexact H)

set_option maxHeartbeats 3200000 in
/-- The body, stepped from `bodyPre` one rule per effect in program order, to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton]; unfold k0_part1_skel k0_part2_skel k0_part3_skel
  simp only [semSignalWord, semWaitWord, Prog.lift, Prog.bind_op, Prog.bind_ret, Prog.pure_eq_ret, Prog.bind_assoc, wp_deviceId]
  simp only [slice_s0, slice_s1, slice_r0, slice_r1]
  unfold bodyPre ghost invs
  iintro ⟨⟨⟨⟨⟨#HIbar, #HIs0, #HIs1, #HIr0, #HIr1, #HIbarP, #HIr0P, #HIr1P⟩, HatB, HatS0, HatS1, HatR0, HatR1, #HrBP, #HrR0P, #HrR1P, #HrS0, #HrS1,
      HtBP, HtR0P, HtR1P, HtS0, HtS1⟩, HcB, HcR0, HcR1, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀ Oa scrPts
  -- the two staging buffers restated through their memrefs' views
  ihave Hx' := (Entails.of_eq (show ((((c : Thread nD τ).loc cc0_stg0_0) ↦{fullShare} xstg m ρ c : sProp 𝕄))
      = ((xM : Memref sig .tc .vmem S1x256x512 .f32).view.loc (c : Thread nD τ) ↦[(xM : Memref sig .tc .vmem S1x256x512 .f32).view.set]{fullShare} xstg m ρ c) from by rw [View.set_whole])) $$ Hx
  ihave Hout' := (Entails.of_eq (show ((((c : Thread nD τ).loc cc0_stg1_0) ↦{fullShare} g1 : sProp 𝕄))
      = ((oM : Memref sig .tc .vmem S256x256 .f32).view.loc (c : Thread nD τ) ↦[(oM : Memref sig .tc .vmem S256x256 .f32).view.set]{fullShare} g1) from by rw [View.set_whole])) $$ Hout
  -- at its barrier wait the device owes its partner's two receive credits only: above its barrier cell
  have hmw : (levAts L lv : sProp 𝕄) ⊢ MayWait (c : Thread nD τ) (.reg barS) () (tallyAt (rCell1 (peer c)) () N + tallyAt (rCell0 (peer c)) () N) := mayWait_bar c
  -- the signal to the partner's barrier cell (its one duty, with this device's landing buffer) and the wait on its own
  -- (the partner's landing buffer comes with it)
  sl_exec (disch := simp only [dev1_eq, dev2_eq, dev3_eq])
  ihave Hp := (Entails.of_eq (show (sched m ρ).payload (barCell c) 0 false = (iprop(∃ f, scrPts (peer c) f) : sProp 𝕄) from payload_bar m ρ c false)) $$ HatB_pay1
  icases Hp with ⟨%fn, HscrN⟩
  ihave Hx := (Entails.of_eq (show ((xM : Memref sig .tc .vmem S1x256x512 .f32).view.loc (c : Thread nD τ) ↦[(xM : Memref sig .tc .vmem S1x256x512 .f32).view.set]{fullShare} xstg m ρ c : sProp 𝕄)
      = (((c : Thread nD τ).loc cc0_stg0_0) ↦{fullShare} xstg m ρ c) from by rw [View.set_whole])) $$ Hx'
  ihave Hout := (Entails.of_eq (show ((oM : Memref sig .tc .vmem S256x256 .f32).view.loc (c : Thread nD τ) ↦[(oM : Memref sig .tc .vmem S256x256 .f32).view.set]{fullShare} g1 : sProp 𝕄)
      = (((c : Thread nD τ).loc cc0_stg1_0) ↦{fullShare} g1) from by rw [View.set_whole])) $$ Hout'
  -- the partner's landing buffer cut into the two destinations and the rest
  unfold scrPts; rw [scr_set]
  ihave Hsp := (pointsTo_split_subset (Finset.subset_univ (D0 (peer c)))).1 $$ HscrN
  icases Hsp with ⟨Hn0, Hnr⟩
  ihave Hsp := (pointsTo_split_subset (D1_sub (peer c))).1 $$ Hnr
  icases Hsp with ⟨Hn1, Hnl⟩
  -- the staged input cut into three shares, two of them restricted to the copies' source rows
  ihave Hsh := (pointsTo_share (PosShare.mem_left_op_right fullShare)).1 $$ Hx
  icases Hsh with ⟨HxA, HxR⟩
  ihave Hsh := (pointsTo_share (PosShare.mem_left_op_right fullShare.right)).1 $$ HxR
  icases Hsh with ⟨HxB, HxC⟩
  ihave Hsp := (pointsTo_split_subset (Finset.subset_univ (src0 c).view.set)).1 $$ HxA
  icases Hsp with ⟨HxA0, HxA1⟩
  ihave Hsp := (pointsTo_split_subset (Finset.subset_univ (src1 c).view.set)).1 $$ HxB
  icases Hsp with ⟨HxB0, HxB1⟩
  -- the two copies
  iapply (wp_send0 m ρ K c (peer c) rfl fn _) $$ [HxA0 Hn0 HO HtS0 HtR0P]
  · isplitr; · iexact HIs0
    isplitr; · iexact HIr0P
    isplitl [HxA0]; · iexact HxA0
    isplitl [Hn0]; · iexact Hn0
    isplitl [HO]; · iexact HO
    isplitl [HtS0]; · iexact HtS0
    isplitr; · iexact HrS0
    isplitl [HtR0P]; · iexact HtR0P
    iexact HrR0P
  iintro ⟨HcS0, HO⟩
  iapply (wp_send1 m ρ K c _ (dev3_eq c) fn _) $$ [HxB0 Hn1 Hnl HO HtS1 HtR1P]
  · isplitr; · iexact HIs1
    isplitr; · iexact HIr1P
    isplitl [HxB0]; · iexact HxB0
    isplitl [Hn1 Hnl]
    · isplitl [Hn1]; · iexact Hn1
      iexact Hnl
    isplitl [HO]; · iexact HO
    isplitl [HtS1]; · iexact HtS1
    isplitr; · iexact HrS1
    isplitl [HtR1P]; · iexact HtR1P
    iexact HrR1P
  iintro ⟨HcS1, HO⟩
  -- the device's own column half, loaded under the third share, and stored
  iapply (wp_load 𝒱₀ (c : Thread nD τ) none Set.univ (m := xM) (Finset.subset_univ _)) $$ HxC; iintro HxC
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [write_out]
  -- the wait on receive cell 0: rows 0–127 of the landing buffer, holding the partner's rows
  iapply (Rounds.wp_wait_rest_token 𝒱₀ ER (sched m ρ) (c : Thread nD τ) none (κ := K (c, 3))
      (wpE_waitDma2_eq 𝒱₀ (c : Thread nD τ) none Set.univ) (Set.mem_univ _) () (O := 0) (R := 0) (m := 0) (T := ∅)
      (by rw [Nat.zero_add, expect_r0])) $$ [HcR0 HO HatR0]
  · isplitr; · iexact HIr0
    isplitl [HcR0]; · iexact HcR0
    isplitl [HO]; · iexact HO
    isplitr; · rw [MayWait_zero]; iempintro
    iexact HatR0
  iintro ⟨HO, HatR0, -, Hpay⟩
  ihave Hr := (Entails.of_eq (rest_r0 m ρ c)) $$ Hpay
  unfold recvPay0
  icases Hr with ⟨%fd0, Hd0⟩
  -- rows 0–127: the kept rows plus the landed rows
  iapply (wp_load 𝒱₀ (c : Thread nD τ) none Set.univ (m := oM) (Finset.subset_univ _)) $$ Hout; iintro Hout
  iapply (wp_load_rect 𝒱₀ (c : Thread nD τ) none Set.univ (m := rM) (r := rT) (Finset.Subset.refl _)) $$ Hd0; iintro Hd0
  rw [read_d0]
  iapply (wp_load 𝒱₀ (c : Thread nD τ) none Set.univ (m := oM) (Finset.subset_univ _)) $$ Hout; iintro Hout
  iapply (wp_store 𝒱₀ (c : Thread nD τ) none Set.univ (m := oM) (r := rT) (Mk := Finset.univ) (Finset.subset_univ _)) $$ Hout; iintro Hout
  -- the wait on receive cell 1: rows 128–255, and the rest of the landing buffer
  iapply (Rounds.wp_wait_rest_token 𝒱₀ ER (sched m ρ) (c : Thread nD τ) none (κ := K (c, 4))
      (wpE_waitDma2_eq 𝒱₀ (c : Thread nD τ) none Set.univ) (Set.mem_univ _) () (O := 0) (R := 0) (m := 0) (T := ∅)
      (by rw [Nat.zero_add, expect_r1])) $$ [HcR1 HO HatR1]
  · isplitr; · iexact HIr1
    isplitl [HcR1]; · iexact HcR1
    isplitl [HO]; · iexact HO
    isplitr; · rw [MayWait_zero]; iempintro
    iexact HatR1
  iintro ⟨HO, HatR1, -, Hpay⟩
  ihave Hr := (Entails.of_eq (rest_r1 m ρ c)) $$ Hpay
  unfold recvPay1
  icases Hr with ⟨%fd1, Hd1, Hdl⟩
  iapply (wp_load 𝒱₀ (c : Thread nD τ) none Set.univ (m := oM) (Finset.subset_univ _)) $$ Hout; iintro Hout
  iapply (wp_load_rect 𝒱₀ (c : Thread nD τ) none Set.univ (m := rM) (r := rB) (Finset.Subset.refl _)) $$ Hd1; iintro Hd1
  rw [read_d1]
  iapply (wp_load 𝒱₀ (c : Thread nD τ) none Set.univ (m := oM) (Finset.subset_univ _)) $$ Hout; iintro Hout
  iapply (wp_store 𝒱₀ (c : Thread nD τ) none Set.univ (m := oM) (r := rB) (Mk := Finset.univ) (Finset.subset_univ _)) $$ Hout; iintro Hout
  -- the waits on the two send cells: the lent shares of the source rows return
  iapply (Rounds.wp_wait_rest_token 𝒱₀ ER (sched m ρ) (c : Thread nD τ) none (κ := K (c, 1))
      (wpE_waitDma2_eq 𝒱₀ (c : Thread nD τ) none Set.univ) (Set.mem_univ _) () (O := 0) (R := 0) (m := 0) (T := ∅)
      (by rw [Nat.zero_add, expect_s0])) $$ [HcS0 HO HatS0]
  · isplitr; · iexact HIs0
    isplitl [HcS0]; · iexact HcS0
    isplitl [HO]; · iexact HO
    isplitr; · rw [MayWait_zero]; iempintro
    iexact HatS0
  iintro ⟨HO, HatS0, -, Hpay⟩
  ihave HxA0 := (Entails.of_eq (rest_s0 m ρ c)) $$ Hpay
  iapply (Rounds.wp_wait_rest_token 𝒱₀ ER (sched m ρ) (c : Thread nD τ) none (κ := K (c, 2))
      (wpE_waitDma2_eq 𝒱₀ (c : Thread nD τ) none Set.univ) (Set.mem_univ _) () (O := 0) (R := 0) (m := 0) (T := ∅)
      (by rw [Nat.zero_add, expect_s1])) $$ [HcS1 HO HatS1]
  · isplitr; · iexact HIs1
    isplitl [HcS1]; · iexact HcS1
    isplitl [HO]; · iexact HO
    isplitr; · rw [MayWait_zero]; iempintro
    iexact HatS1
  iintro ⟨HO, HatS1, -, Hpay⟩
  ihave HxB0 := (Entails.of_eq (rest_s1 m ρ c)) $$ Hpay
  unfold sendPay0 sendPay1
  -- the four own cells close: their counters at zero are the core's again
  imod (Rounds.cell_close ER (sched m ρ) (Set.mem_univ (K (c, 1))) (fun h => h) (R := 0 + 1) (duties_later m ρ (sCell0 c))) $$ [HatS0] with HzS0
  · isplitr; · iexact HIs0
    iexact HatS0
  imod (Rounds.cell_close ER (sched m ρ) (Set.mem_univ (K (c, 2))) (fun h => h) (R := 0 + 1) (duties_later m ρ (sCell1 c))) $$ [HatS1] with HzS1
  · isplitr; · iexact HIs1
    iexact HatS1
  imod (Rounds.cell_close ER (sched m ρ) (Set.mem_univ (K (c, 3))) (fun h => h) (R := 0 + 1) (duties_later m ρ (rCell0 c))) $$ [HatR0] with HzR0
  · isplitr; · iexact HIr0
    iexact HatR0
  imod (Rounds.cell_close ER (sched m ρ) (Set.mem_univ (K (c, 4))) (fun h => h) (R := 0 + 1) (duties_later m ρ (rCell1 c))) $$ [HatR1] with HzR1
  · isplitr; · iexact HIr1
    iexact HatR1
  -- the staged input put together again: each lent share with what was cut off it, then the three shares
  ihave HxA := (pointsTo_split_subset (ℓ := (c : Thread nD τ).loc cc0_stg0_0) (q := qA) (f := xstg m ρ c) (Finset.subset_univ (src0 c).view.set)).2 $$ [HxA0 HxA1]
  · isplitl [HxA0]; · iexact HxA0
    iexact HxA1
  ihave HxB := (pointsTo_split_subset (ℓ := (c : Thread nD τ).loc cc0_stg0_0) (q := qB) (f := xstg m ρ c) (Finset.subset_univ (src1 c).view.set)).2 $$ [HxB0 HxB1]
  · isplitl [HxB0]; · iexact HxB0
    iexact HxB1
  ihave HxR := (pointsTo_share (PosShare.mem_left_op_right fullShare.right)).2 $$ [HxB HxC]
  · isplitl [HxB]; · iexact HxB
    iexact HxC
  ihave Hx := (pointsTo_share (PosShare.mem_left_op_right fullShare)).2 $$ [HxA HxR]
  · isplitl [HxA]; · iexact HxA
    iexact HxR
  -- the landing buffer put together again: the second destination with the rest, then the first
  ihave Hj := (pointsTo_join_subset (D1_sub c)) $$ [Hd1 Hdl]
  · isplitl [Hd1]; · iexact Hd1
    iexact Hdl
  ihave Hscr := (pointsTo_join_subset (Finset.subset_univ (D0 c))) $$ [Hd0 Hj]
  · isplitl [Hd0]; · iexact Hd0
    iexact Hj
  rw [wp_ret]; imodintro
  iapply Hk
  unfold bodyPost Φ₁ Dat.owesAt Pipeline.owesWithin
  rw [show (dats m ρ 0 c).owed t₀.succ = 0 from rfl]
  isplitl [Hscr HzS0 HzS1 HzR0 HzR1]
  · isplitl [Hscr]; · iexists _; unfold scrPts; rw [scr_set]; iexact Hscr
    isplitl [HzS0]; · iexact HzS0
    isplitl [HzS1]; · iexact HzS1
    isplitl [HzR0]; · iexact HzR0
    iexact HzR1
  isplitl [HO]
  · iexists (insert (SemLoc.dma sS1, ()) (insert (SemLoc.dma sS0, ()) (insert (SemLoc.dma rS1, ()) (insert (SemLoc.dma rS0, ())
      (insert (SemLoc.reg barS, ()) W)))))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

end Body

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3, H4⟩
      isplitl [H1]; · iexact H1
      isplitl [H2]; · iexact H2
      isplitl [H3]; · iexact H3
      isplitl [H4]; · iexact H4
      iexact Hscr
    isplitl [Ho]; · iexact Ho
    isplitl [Hx] <;> iassumption
  · iintro H; iexact H

end Cert.KernelIdeal.RS

end
-- ==== Proof.KernelIdealLaunch.lean ====
/-
  The launch of the exchange on the eight devices: the five cells of every device allocated at once (the barrier
  semaphore is the runtime's, shared by the two partners, so all devices' cells are allocated under one update), the
  duty tokens dealt to the devices that pay them (a device's barrier token and its two receive tokens go to its
  partner), the launch credit (one barrier unit and two copies' credit per device, all owed by its partner), and the
  run: every fair execution terminates, the input array is unchanged, and the result array of device `c` ends as
  `outAt c`.
-/
import proofs.«900472_g7700000000000473_dist_rs_v7x_xyz2x2x2_y_m256_n256_f32_1_alg».proof.Proof.KernelIdealBody

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 5 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def xCells : Finset (GSem nD τ sig) := Finset.univ.map ⟨kcell, kcell_injective⟩

/-- A device's own cells' duty tokens as minted: one per cell, the duty `false` of round 0. -/
abbrev tokOf (ck : Dev nD × Fin 5) : GSem nD τ sig × ℕ × Bool := (kcell ck, 0, false)
theorem tokOf_injective : Function.Injective (tokOf : Dev nD × Fin 5 → GSem nD τ sig × ℕ × Bool) :=
  fun a b h => kcell_injective (congrArg Prod.fst h)
def xToks : Finset (GSem nD τ sig × ℕ × Bool) := Finset.univ.map ⟨tokOf, tokOf_injective⟩

def u₀ : UU :=
  (initOf (Pipeline.cells cfgs cellOf_inj) (Pipeline.launchToks cfgs cellOf_inj), initOf xCells xToks)

/-- The duty tokens of device `c`'s own cells. -/
def toks (c : Dev nD) : sProp 𝕄 := bigSep Finset.univ fun k : Fin 5 => dutyTok ER (kcell (c, k)) 0 false

/-- What the launch element deals device `c` (the theorem's `G`). -/
def G (c : Dev nD) : sProp 𝕄 :=
  iprop((bigSep Finset.univ fun k : Fin 5 => roundState ER (sched m ρ) (kcell (c, k)) 0)
    ∗ (bigSep Finset.univ fun k : Fin 5 => iprop(atPos ER (kcell (c, k)) 0 ∅ 0 ∗ reached ER (kcell (c, k)) 0)) ∗ toks c)

/-- What the global step makes of it (`G'`). -/
def G' (c : Dev nD) : sProp 𝕄 := iprop(∃ K, ghost m ρ K c)

omit [FloatOps F] in
theorem bigSep_fin5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ

omit [FloatOps F] in
theorem fund_x : BI.own (ER (initOf xCells xToks)) ⊢ (|==> bigSep Finset.univ (G m ρ) : sProp 𝕄) := by
  have hX (Φ : GSem nD τ sig → sProp 𝕄) : bigSep xCells Φ = bigSep Finset.univ fun c : Dev nD => bigSep Finset.univ fun k : Fin 5 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks toks; rw [bigSep_map, bigSep_univ_prod]; rfl
  iintro HX
  imod (Rounds.fund ER (sched m ρ) xCells xToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The four send and receive semaphores are the kernel's own; -/
theorem ownSems0_eq (c : Dev nD) : (Pipeline.ownSems0 (Ix := Unit) (Name := ℕ) (U := UU) (Lvl := ℕ) (Val := Elt F) (τ := τ) osem c : sProp 𝕄)
    = iprop(semVal (sCell0 c) 0 ∗ semVal (sCell1 c) 0 ∗ semVal (rCell0 c) 0 ∗ semVal (rCell1 c) 0) := by
  rw [Pipeline.ownSems0_eq_of_list c osem [0, 1, 2, 3] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_fin5]
  iintro ⟨⟨HS0, HS1, HR0, HR1⟩, HB⟩
  isplitl [HB]; · iexact HB
  isplitl [HS0]; · iexact HS0
  isplitl [HS1]; · iexact HS1
  isplitl [HR0]; · iexact HR0
  iexact HR1

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 5 => semVal (kcell (c, k)) 0) ∗ bigSep Finset.univ fun k : Fin 5 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 5 → ℕ) : sProp 𝕄 :=
  iprop((bigSep Finset.univ fun ck : Dev nD × Fin 5 => cellInv ER (sched m ρ) (K ck) (kcell ck))
    ∗ bigSep Finset.univ fun ck : Dev nD × Fin 5 => reached ER (kcell ck) 0)

instance records_persistent (K : Dev nD × Fin 5 → ℕ) : BI.Persistent (records m ρ K) := by unfold records; infer_instance

omit [FloatOps F] in
theorem inv_at (K : Dev nD × Fin 5 → ℕ) (ck : Dev nD × Fin 5) :
    (bigSep Finset.univ fun ck : Dev nD × Fin 5 => (cellInv ER (sched m ρ) (K ck) (kcell ck) : sProp 𝕄)) ⊢ cellInv ER (sched m ρ) (K ck) (kcell ck) :=
  bigSep_elim (Finset.mem_univ ck)
omit [FloatOps F] in
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop(dutyTok ER (barCell (peer c)) 0 false ∗ dutyTok ER (rCell0 (peer c)) 0 false ∗ dutyTok ER (rCell1 (peer c)) 0 false
    ∗ dutyTok ER (sCell0 c) 0 false ∗ dutyTok ER (sCell1 c) 0 false)
def linear (c : Dev nD) : sProp 𝕄 :=
  iprop((atPos ER (barCell c) 0 ∅ 0 ∗ atPos ER (sCell0 c) 0 ∅ 0 ∗ atPos ER (sCell1 c) 0 ∅ 0 ∗ atPos ER (rCell0 c) 0 ∅ 0 ∗ atPos ER (rCell1 c) 0 ∅ 0) ∗ payToks c)

omit [FloatOps F] in
theorem ghost_intro (K : Dev nD × Fin 5 → ℕ) (c : Dev nD) : iprop(records m ρ K ∗ linear c) ⊢ G' m ρ c := by
  unfold records linear payToks G' ghost invs
  iintro ⟨⟨#HI, #HR⟩, ⟨HaB, HaS0, HaS1, HaR0, HaR1⟩, HtBP, HtR0P, HtR1P, HtS0, HtS1⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (c, 4)); iexact HI
    isplitr; · iapply (inv_at m ρ K (peer c, 0)); iexact HI
    isplitr; · iapply (inv_at m ρ K (peer c, 3)); iexact HI
    iapply (inv_at m ρ K (peer c, 4)); iexact HI
  isplitl [HaB]; · iexact HaB
  isplitl [HaS0]; · iexact HaS0
  isplitl [HaS1]; · iexact HaS1
  isplitl [HaR0]; · iexact HaR0
  isplitl [HaR1]; · iexact HaR1
  isplitr; · iapply (reached_at (F := F) (peer c, 0)); iexact HR
  isplitr; · iapply (reached_at (F := F) (peer c, 3)); iexact HR
  isplitr; · iapply (reached_at (F := F) (peer c, 4)); iexact HR
  isplitr; · iapply (reached_at (F := F) (c, 1)); iexact HR
  isplitr; · iapply (reached_at (F := F) (c, 2)); iexact HR
  isplitl [HtBP]; · iexact HtBP
  isplitl [HtR0P]; · iexact HtR0P
  isplitl [HtR1P]; · iexact HtR1P
  isplitl [HtS0]; · iexact HtS0
  iexact HtS1

omit [FloatOps F] in
/-- The tokens dealt across each pair: a device's barrier token and its two receive tokens go to its partner. -/
theorem toks_around : (bigSep Finset.univ fun c : Dev nD => (toks c : sProp 𝕄)) ⊢ bigSep Finset.univ fun c : Dev nD => payToks c := by
  unfold toks payToks
  rw [bigSep_congr (s := Finset.univ) (fun (c : Dev nD) _ => bigSep_fin5 (fun k : Fin 5 => (dutyTok ER (kcell (c, k)) 0 false : sProp 𝕄)))]
  rw [bigSep_sep', bigSep_sep', bigSep_sep', bigSep_sep', bigSep_sep', bigSep_sep', bigSep_sep', bigSep_sep',
    bigSep_univ_equiv pe (fun c : Dev nD => (dutyTok ER (kcell (c, 0)) 0 false : sProp 𝕄)),
    bigSep_univ_equiv pe (fun c : Dev nD => (dutyTok ER (kcell (c, 3)) 0 false : sProp 𝕄)),
    bigSep_univ_equiv pe (fun c : Dev nD => (dutyTok ER (kcell (c, 4)) 0 false : sProp 𝕄))]
  iintro ⟨H0, H1, H2, H3, H4⟩
  isplitl [H0]; · iexact H0
  isplitl [H3]; · iexact H3
  isplitl [H4]; · iexact H4
  isplitl [H1]; · iexact H1
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 5 => iprop(∃ κ : ℕ, cellInv ER (sched m ρ) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 5 => (atPos ER (kcell (c, k)) 0 ∅ 0 : sProp 𝕄)) payToks).symm).trans
      (bigSep_mono fun c _ => show _ ⊢ linear c from Entails.of_eq (by unfold linear; rw [bigSep_fin5])))
    isplitl [Hat]; · iexact Hat
    iexact Htk

omit [FloatOps F] in
/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem r0_eq_iff {a b : Dev nD} : Iff (rCell0 a = rCell0 b) (a = b) :=
  ⟨fun h => Fin.ext (congrArg (fun g : GSem nD τ sig => g.1.1.val) h), fun h => h ▸ rfl⟩
omit [FloatOps F] in
theorem r1_eq_iff {a b : Dev nD} : Iff (rCell1 a = rCell1 b) (a = b) :=
  ⟨fun h => Fin.ext (congrArg (fun g : GSem nD τ sig => g.1.1.val) h), fun h => h ▸ rfl⟩
theorem peer_eq_iff {d c : Dev nD} : Iff (c = peer d) (d = peer c) :=
  ⟨fun h => by rw [h, peer_peer], fun h => by rw [h, peer_peer]⟩

omit [FloatOps F] in
/-- What device `d` owes device `c`'s barrier cell: a unit if it is `c`'s partner. -/
theorem owed_bar (d c : Dev nD) : O₀ d (barCell c) () = if d = peer c then 1 else 0 := by
  unfold O₀ Oa
  rw [Pi.add_apply, Finsupp.add_apply, Pi.add_apply, Finsupp.add_apply,
    tallyAt_ne_cell (fun h => r1_ne_bar (congrArg Prod.snd h).symm), tallyAt_ne_cell (fun h => r0_ne_bar (congrArg Prod.snd h).symm),
    tallyAt_apply, Finsupp.zero_apply, Nat.zero_add, Nat.zero_add]
  by_cases h : d = peer c
  · subst h; rw [peer_peer, if_pos ⟨rfl, rfl⟩, if_pos rfl]
  · rw [if_neg (fun ⟨h1, _⟩ => h (peer_eq_iff.mp (bar_eq_iff.mp h1))), if_neg h]

omit [FloatOps F] in
theorem owed_r0 (d c : Dev nD) : O₀ d (rCell0 c) () = if d = peer c then N else 0 := by
  unfold O₀ Oa
  rw [Pi.add_apply, Finsupp.add_apply, Pi.add_apply, Finsupp.add_apply,
    tallyAt_ne_cell (g := rCell1 (peer d)) (g' := rCell0 c) (fun h => r1_ne_r0 (congrArg Prod.snd h).symm),
    tallyAt_ne_cell (g := barCell (peer d)) (g' := rCell0 c) (fun h => r0_ne_bar (congrArg Prod.snd h)),
    tallyAt_apply, Finsupp.zero_apply, Nat.zero_add, Nat.add_zero]
  by_cases h : d = peer c
  · subst h; rw [peer_peer, if_pos ⟨rfl, rfl⟩, if_pos rfl]
  · rw [if_neg (fun ⟨h1, _⟩ => h (peer_eq_iff.mp (r0_eq_iff.mp h1))), if_neg h]

omit [FloatOps F] in
theorem owed_r1 (d c : Dev nD) : O₀ d (rCell1 c) () = if d = peer c then N else 0 := by
  unfold O₀ Oa
  rw [Pi.add_apply, Finsupp.add_apply, Pi.add_apply, Finsupp.add_apply,
    tallyAt_ne_cell (g := rCell0 (peer d)) (g' := rCell1 c) (fun h => r1_ne_r0 (congrArg Prod.snd h)),
    tallyAt_ne_cell (g := barCell (peer d)) (g' := rCell1 c) (fun h => r1_ne_bar (congrArg Prod.snd h)),
    tallyAt_apply, Finsupp.zero_apply, Nat.add_zero, Nat.add_zero]
  by_cases h : d = peer c
  · subst h; rw [peer_peer, if_pos ⟨rfl, rfl⟩, if_pos rfl]
  · rw [if_neg (fun ⟨h1, _⟩ => h (peer_eq_iff.mp (r1_eq_iff.mp h1))), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_r0 (c : Dev nD) :
    tallyOn (rCell0 c) (launchCredit (Pipeline.owing O₀) 0 (rCell0 c)) = (tallyAt (rCell0 c) () N : CellTallies nD τ sig Unit) := by
  unfold tallyAt; refine congrArg _ (Finsupp.ext fun u => ?_); cases u
  rw [Pipeline.launchCredit_owing, Finsupp.single_eq_same, Finset.sum_congr rfl fun d _ => owed_r0 d c,
    Finset.sum_ite_eq' Finset.univ (peer c) fun _ => N, if_pos (Finset.mem_univ _)]

omit [FloatOps F] in
theorem launch_r1 (c : Dev nD) :
    tallyOn (rCell1 c) (launchCredit (Pipeline.owing O₀) 0 (rCell1 c)) = (tallyAt (rCell1 c) () N : CellTallies nD τ sig Unit) := by
  unfold tallyAt; refine congrArg _ (Finsupp.ext fun u => ?_); cases u
  rw [Pipeline.launchCredit_owing, Finsupp.single_eq_same, Finset.sum_congr rfl fun d _ => owed_r1 d c,
    Finset.sum_ite_eq' Finset.univ (peer c) fun _ => N, if_pos (Finset.mem_univ _)]

omit [FloatOps F] in
theorem creds (c : Dev nD) :
    (Pipeline.launchCred O₀ c : sProp 𝕄) ⊢ iprop(cred (tallyAt (barCell c) () 1) ∗ cred (tallyAt (rCell0 c) () N) ∗ cred (tallyAt (rCell1 c) () N)) := by
  unfold Pipeline.launchCred
  rw [bigSep_univ_at _ (SemLoc.reg barS), launch_bar]
  refine sep_mono_right ?_
  rw [bigSep_erase (i := SemLoc.dma rS0) (Finset.mem_erase.mpr ⟨r0_ne_bar, Finset.mem_univ _⟩), launch_r0]
  refine sep_mono_right ?_
  rw [← launch_r1]
  exact bigSep_elim (Finset.mem_erase.mpr ⟨r1_ne_r0, Finset.mem_erase.mpr ⟨r1_ne_bar, Finset.mem_univ _⟩⟩)

/-! ### The theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN0, HN1⟩
  imodintro
  unfold start G'
  isplitl
  · isplitl [HG]; · iexact HG
    isplitl [H1]; · iexact H1
    isplitl [HN0]; · iexact HN0
    isplitl [HN1]; · iexact HN1
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; rw [scrPts_eq]; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨⟨%f, Hr⟩, HzS0, HzS1, HzR0, HzR1⟩
  isplitr; · iempintro
  isplitl [HzS0 HzS1 HzR0 HzR1]
  · isplitl [HzS0]; · iexact HzS0
    isplitl [HzS1]; · iexact HzS1
    isplitl [HzR0]; · iexact HzR0
    iexact HzR1
  iexists f; rw [← scrPts_eq]; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: every weakly fair
    execution of @main — the partners handshaking on the runtime's barrier semaphore, then copying their halves across —
    terminates, and every final state has each device's two arrays at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_x m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.RS.run_main' depends on axioms: [propext, Classical.choice, Quot.sound] -/
#guard_msgs in #print axioms run_main

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array's one block — the whole array — after the run is what the body left in the staging buffer. -/
theorem finalA_o (c : Dev nD) : finalA m ρ c (1 : Fin 2) = outAt m ρ c := by
  have hz : (fun a => (win0_1.index (0 : Fin 1)) a * main_v1.ty.shape.size a) = fun _ => 0 :=
    funext fun a => by fin_cases a <;> decide
  have hr := fun f => Memref.read_access_unit_zero (Elt F) main_v1 hz (fun a => by fin_cases a <;> decide) f
  have h : (win0_1.blk (0 : Fin 1)).view.read (Elt F) (finalA m ρ c (1 : Fin 2)) = outAt m ρ c := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  rw [hr] at h
  exact h

end Cert.KernelIdeal.RS

end
-- ==== Proof.KernelIdealValue.lean ====
/-
  What the exchange computes, index by index, at the ideal instance. On device `c` (mesh coordinate y) entry (p, q)
  of the result is the device's own entry (0, p, 256·y + q) plus its partner's entry (0, p, 256·y + q): the kept
  column half read at an index, each copy's source rows read at an index, and the two row halves of the result read
  through the stores that wrote them. The device's block is row y of the whole input and its partner's row 1 − y, so
  the entry is x[y, p, 256·y + q] + x[1 − y, p, 256·y + q], which is entry (p, 256·y + q) of the sum over the
  leading axis, 0 + (x[0, ·] + x[1, ·]), by commutativity of addition on the extended reals.
-/
import proofs.«900472_g7700000000000473_dist_rs_v7x_xyz2x2x2_y_m256_n256_f32_1_alg».proof.Proof.KernelIdealProto
import proofs.«900472_g7700000000000473_dist_rs_v7x_xyz2x2x2_y_m256_n256_f32_1_alg».proof.Proof.Gen.ReferenceIdeal.Read
import Idealize.ShloMosaic.Lib.Layout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RSValue

open Cert.KernelIdeal Cert.KernelIdeal.Gen Cert.KernelIdeal.RS

open Idealize.ShloMosaic Idealize.ShloMosaic.TcCoe Idealize.ShloMosaic.ValueIdx Idealize.ShloMosaic.Layout
open Idealize.SL.Sem

/-! ## Reads at an index, over variables -/

/-- The kept column half: a load of 256 columns from column `y` on, cast to rank 2, read at (p, q). -/
theorem kept_apply (off : Fin 3 → Nat) (inb : ∀ a, off a + S1x256x256.size a ≤ S1x256x512.size a) (y : ℕ) (hoff : off = ![0, 0, y]) (hy : y + 256 ≤ 512)
    (xs : S1x256x512.Idx → Elt Ideal .f32) (p q : Fin 256) :
    k0_pay1 (F := Ideal) ((xM : Memref sig .tc .vmem S1x256x512 .f32).view.readAt (Elt Ideal) (Rect.unit (s := S1x256x512) off S1x256x256.size inb).toLoadRect xs) (ix2 p q)
      = xs (ix3 (0 : Fin 1) p ⟨y + q.val, by omega⟩) := by
  subst hoff
  unfold k0_pay1
  refine (shapeCast_1ab_ab_apply _ _ p q).trans ?_
  refine congrArg xs (funext fun a => Fin.ext ?_)
  match a with
  | ⟨0, _⟩ => rfl
  | ⟨1, _⟩ => show 0 + 1 * p.val = p.val; omega
  | ⟨2, _⟩ => show y + 1 * q.val = y + q.val; omega

/-- A copy's source rows: 128 rows from row `r0` on, 256 columns from column `y` on, the unit axis dropped, read at (p, q). -/
theorem src_apply (off : Fin 3 → Nat) (inb : ∀ a, off a + S1x128x256.size a ≤ S1x256x512.size a) (r0 y : ℕ) (hoff : off = ![0, r0, y])
    (hr : r0 + 128 ≤ 256) (hy : y + 256 ≤ 512) (xs : S1x256x512.Idx → Elt Ideal .f32) (p : Fin 128) (q : Fin 256) :
    (((xM : Memref sig .tc .vmem S1x256x512 .f32).slice (Rect.unit (s := S1x256x512) off S1x128x256.size inb) (fun _ => rfl)).squeeze S128x256 squeezes_S1x128x256_S128x256).view.read (Elt Ideal) xs (ix2 p q)
      = xs (ix3 (0 : Fin 1) ⟨r0 + p.val, by omega⟩ ⟨y + q.val, by omega⟩) := by
  subst hoff
  rw [View.read_apply]
  show xs ((Rect.unit (s := S1x256x512) ![0, r0, y] S1x128x256.size inb).emb (Shape.reshapeEquiv _ (ix2 p q))) = _
  rw [reshapeEquiv_ix2_1ab]
  refine congrArg xs (funext fun a => Fin.ext ?_)
  match a with
  | ⟨0, _⟩ => rfl
  | ⟨1, _⟩ => show r0 + 1 * p.val = r0 + p.val; omega
  | ⟨2, _⟩ => show y + 1 * q.val = y + q.val; omega

/-! ## The result read through its stores, over variables -/

theorem emb_top (p : Fin 128) (q : Fin 256) :
    ((oM : Memref sig .tc .vmem S256x256 .f32).access rT : View sig .tc _ _ _).emb (ix2 p q) = ix2 (⟨p.val, by omega⟩ : Fin 256) q :=
  funext fun a => Fin.ext (by
    match a with
    | ⟨0, _⟩ => show 0 + 1 * p.val = p.val; omega
    | ⟨1, _⟩ => show 0 + 1 * q.val = q.val; omega)

theorem emb_bot (p : Fin 128) (q : Fin 256) :
    ((oM : Memref sig .tc .vmem S256x256 .f32).access rB : View sig .tc _ _ _).emb (ix2 p q) = ix2 (⟨128 + p.val, by omega⟩ : Fin 256) q :=
  funext fun a => Fin.ext (by
    match a with
    | ⟨0, _⟩ => show 128 + 1 * p.val = 128 + p.val; omega
    | ⟨1, _⟩ => show 0 + 1 * q.val = q.val; omega)

/-- Rows 0–127 are not among the rows the second store writes, -/
theorem top_not_bot (p : Fin 128) (q : Fin 256) :
    ix2 (⟨p.val, by omega⟩ : Fin 256) q ∉ ((oM : Memref sig .tc .vmem S256x256 .f32).access rB : View sig .tc _ _ _).setOn Finset.univ := fun h => by
  obtain ⟨y, -, e⟩ := Finset.mem_map.mp h
  have e0 := congrArg (fun i : S256x256.Idx => (i 0).val) e
  change 128 + 1 * (y 0).val = p.val at e0
  omega

/-- nor rows 128–255 among the rows the first store writes. -/
theorem bot_not_top (p : Fin 128) (q : Fin 256) :
    ix2 (⟨128 + p.val, by omega⟩ : Fin 256) q ∉ ((oM : Memref sig .tc .vmem S256x256 .f32).access rT : View sig .tc _ _ _).setOn Finset.univ := fun h => by
  obtain ⟨y, -, e⟩ := Finset.mem_map.mp h
  have e0 := congrArg (fun i : S256x256.Idx => (i 0).val) e
  change 0 + 1 * (y 0).val = 128 + p.val at e0
  have := (y 0).isLt
  change (y 0).val < 128 at this
  omega

/-- A load of rows 0–127 read at (p, q), and of rows 128–255. -/
theorem ld_top (f : S256x256.Idx → Elt Ideal .f32) (p : Fin 128) (q : Fin 256) :
    (oM : Memref sig .tc .vmem S256x256 .f32).view.readAt (Elt Ideal) rT.toLoadRect f (ix2 p q) = f (ix2 (⟨p.val, by omega⟩ : Fin 256) q) :=
  congrArg f (emb_top p q)
theorem ld_bot (f : S256x256.Idx → Elt Ideal .f32) (p : Fin 128) (q : Fin 256) :
    (oM : Memref sig .tc .vmem S256x256 .f32).view.readAt (Elt Ideal) rB.toLoadRect f (ix2 p q) = f (ix2 (⟨128 + p.val, by omega⟩ : Fin 256) q) :=
  congrArg f (emb_bot p q)

theorem pay2_apply (a b : S128x256.Idx → Elt Ideal .f32) (j : S128x256.Idx) :
    k0_pay2 (F := Ideal) a b j = (show EReal from a j) + (show EReal from b j) := by
  unfold k0_pay2; rw [shapeCast_self]; rfl
theorem pay3_apply (a b : S128x256.Idx → Elt Ideal .f32) (j : S128x256.Idx) :
    k0_pay3 (F := Ideal) a b j = (show EReal from a j) + (show EReal from b j) := by
  unfold k0_pay3; rw [shapeCast_self]; rfl

section Stores
variable (mn : S256x256.Idx → Elt Ideal .f32) (g0 g1 : S128x256.Idx → Elt Ideal .f32)

/-- The result after the first addition, -/
def o2 : S256x256.Idx → Elt Ideal .f32 :=
  ((oM : Memref sig .tc .vmem S256x256 .f32).access rT : View sig .tc _ _ _).write (Elt Ideal) mn
    (k0_pay2 (F := Ideal) ((oM : Memref sig .tc .vmem S256x256 .f32).view.readAt (Elt Ideal) rT.toLoadRect mn) g0) Finset.univ
/-- and after the second. -/
def o3 : S256x256.Idx → Elt Ideal .f32 :=
  ((oM : Memref sig .tc .vmem S256x256 .f32).access rB : View sig .tc _ _ _).write (Elt Ideal) (o2 mn g0)
    (k0_pay3 (F := Ideal) ((oM : Memref sig .tc .vmem S256x256 .f32).view.readAt (Elt Ideal) rB.toLoadRect (o2 mn g0)) g1) Finset.univ

theorem o2_top (p : Fin 128) (q : Fin 256) :
    o2 mn g0 (ix2 (⟨p.val, by omega⟩ : Fin 256) q) = (show EReal from mn (ix2 (⟨p.val, by omega⟩ : Fin 256) q)) + (show EReal from g0 (ix2 p q)) := by
  unfold o2
  rw [← emb_top p q, View.write_emb_of_mem _ _ (Finset.mem_univ _)]
  refine (pay2_apply _ _ _).trans ?_
  rw [ld_top, emb_top]
theorem o2_bot (p : Fin 128) (q : Fin 256) :
    o2 mn g0 (ix2 (⟨128 + p.val, by omega⟩ : Fin 256) q) = mn (ix2 (⟨128 + p.val, by omega⟩ : Fin 256) q) := by
  unfold o2
  exact View.write_of_not_mem _ _ _ (bot_not_top p q)

/-- Rows 0–127 of the result: the kept rows plus the first copy's; -/
theorem o3_top (p : Fin 128) (q : Fin 256) :
    o3 mn g0 g1 (ix2 (⟨p.val, by omega⟩ : Fin 256) q) = (show EReal from mn (ix2 (⟨p.val, by omega⟩ : Fin 256) q)) + (show EReal from g0 (ix2 p q)) := by
  unfold o3
  rw [View.write_of_not_mem _ _ _ (top_not_bot p q)]
  exact o2_top mn g0 p q
/-- rows 128–255: the kept rows plus the second copy's. -/
theorem o3_bot (p : Fin 128) (q : Fin 256) :
    o3 mn g0 g1 (ix2 (⟨128 + p.val, by omega⟩ : Fin 256) q) = (show EReal from mn (ix2 (⟨128 + p.val, by omega⟩ : Fin 256) q)) + (show EReal from g1 (ix2 p q)) := by
  unfold o3
  rw [← emb_bot p q, View.write_emb_of_mem _ _ (Finset.mem_univ _)]
  refine (pay3_apply _ _ _).trans ?_
  rw [ld_bot, emb_bot, o2_bot]

end Stores

/-! ## On device `c` -/

/-- Device `c`'s coordinate on the mesh axis y. -/
def yv (c : Dev nD) : ℕ := (c.val / 2) % 2
theorem yv_lt (c : Dev nD) : yv c < 2 := Nat.mod_lt _ (by decide)
theorem yv_peer (c : Dev nD) : yv (peer c) = 1 - yv c := by revert c; decide
theorem off3_eq (c : Dev nD) : k0_off3 c = ![0, 0, 256 * yv c] := k0_off3_eq c
theorem off1_peer (c : Dev nD) : k0_off1 (peer c) = ![0, 0, 256 * yv c] := by rw [k0_off1_eq]; revert c; decide
theorem off2_peer (c : Dev nD) : k0_off2 (peer c) = ![0, 128, 256 * yv c] := by rw [k0_off2_eq]; revert c; decide

variable (m : (ℓ : Loc nD τ sig) → Buf (Elt Ideal) ℓ) (ρ : Dev nD → PrngReg)

theorem outAt_o3 (c : Dev nD) : outAt m ρ c = o3 (mine m ρ c) (got0 m ρ c) (got1 m ρ c) := rfl

theorem mine_apply (c : Dev nD) (p q : Fin 256) :
    mine m ρ c (ix2 p q) = xstg m ρ c (ix3 (0 : Fin 1) p ⟨256 * yv c + q.val, by have := yv_lt c; omega⟩) := by
  unfold mine
  exact kept_apply (k0_off3 c) (k0_off3_inb c) (256 * yv c) (off3_eq c) (by have := yv_lt c; omega) _ p q
theorem got0_apply (c : Dev nD) (p : Fin 128) (q : Fin 256) :
    got0 m ρ c (ix2 p q) = xstg m ρ (peer c) (ix3 (0 : Fin 1) ⟨0 + p.val, by omega⟩ ⟨256 * yv c + q.val, by have := yv_lt c; omega⟩) := by
  unfold got0
  exact src_apply (k0_off1 (peer c)) (k0_off1_inb (peer c)) 0 (256 * yv c) (off1_peer c) (by omega) (by have := yv_lt c; omega) _ p q
theorem got1_apply (c : Dev nD) (p : Fin 128) (q : Fin 256) :
    got1 m ρ c (ix2 p q) = xstg m ρ (peer c) (ix3 (0 : Fin 1) ⟨128 + p.val, by omega⟩ ⟨256 * yv c + q.val, by have := yv_lt c; omega⟩) := by
  unfold got1
  exact src_apply (k0_off2 (peer c)) (k0_off2_inb (peer c)) 128 (256 * yv c) (off2_peer c) (by omega) (by have := yv_lt c; omega) _ p q

/-- Entry (P, Q) of the kernel's result on device `c`: its own entry (0, P, 256·y + Q) plus its partner's. -/
theorem kernel_entry (c : Dev nD) (P Q : Fin 256) :
    outAt m ρ c (ix2 P Q)
      = (show EReal from xstg m ρ c (ix3 (0 : Fin 1) P ⟨256 * yv c + Q.val, by have := yv_lt c; omega⟩))
        + (show EReal from xstg m ρ (peer c) (ix3 (0 : Fin 1) P ⟨256 * yv c + Q.val, by have := yv_lt c; omega⟩)) := by
  rw [outAt_o3]
  obtain ⟨p, hp⟩ := P
  by_cases hP : p < 128
  · refine (o3_top _ _ _ ⟨p, hP⟩ Q).trans ?_
    rw [mine_apply, got0_apply]
    refine congrArg (fun i => (show EReal from xstg m ρ c (ix3 (0 : Fin 1) ⟨p, hp⟩ ⟨256 * yv c + Q.val, by have := yv_lt c; omega⟩)) + (show EReal from xstg m ρ (peer c) i)) ?_
    exact funext fun a => Fin.ext (by
      match a with
      | ⟨0, _⟩ => rfl
      | ⟨1, _⟩ => exact Nat.zero_add p
      | ⟨2, _⟩ => rfl)
  · obtain ⟨k, rfl⟩ : ∃ k, p = 128 + k := ⟨p - 128, by omega⟩
    refine (o3_bot _ _ _ ⟨k, by omega⟩ Q).trans ?_
    rw [mine_apply, got1_apply]

/-! ## Against the reference -/

theorem mbA0 (c : Dev nD) : ((meshBlock [2, 2, 2] ![[1], [], []] c) (0 : Fin 3)).val = yv c := by revert c; decide
theorem mbA1 (c : Dev nD) : ((meshBlock [2, 2, 2] ![[1], [], []] c) (1 : Fin 3)).val = 0 := by revert c; decide
theorem mbA2 (c : Dev nD) : ((meshBlock [2, 2, 2] ![[1], [], []] c) (2 : Fin 3)).val = 0 := by revert c; decide
theorem mbB0 (c : Dev nD) : ((meshBlock [2, 2, 2] ![[], [1]] c) (0 : Fin 2)).val = 0 := by revert c; decide
theorem mbB1 (c : Dev nD) : ((meshBlock [2, 2, 2] ![[], [1]] c) (1 : Fin 2)).val = yv c := by revert c; decide

/-- Device `c`'s staged block is row y of the whole input. -/
theorem xstg_block (c : Dev nD) (X : (⟨3, ![2, 256, 512]⟩ : Shape).Idx → Elt Ideal .f32)
    (h : m ((c : Thread nD τ).loc main_arg0) = blockN ⟨3, ![1, 256, 512]⟩ ⟨3, ![2, 256, 512]⟩ (meshBlock [2, 2, 2] ![[1], [], []] c) X)
    (i1 : Fin 256) (i2 : Fin 512) :
    xstg m ρ c (ix3 (0 : Fin 1) i1 i2) = X (ix3 (⟨yv c, yv_lt c⟩ : Fin 2) i1 i2) := by
  have hz0 : (fun a => (win0_0.index (0 : Fin 1)) a * main_arg0.ty.shape.size a) = fun _ => 0 :=
    funext fun a => by fin_cases a <;> decide
  unfold xstg Cert.KernelIdeal.RS.s₀
  rw [Memref.read_access_unit_zero (Elt Ideal) main_arg0 hz0 (fun a => by fin_cases a <;> decide)]
  dsimp only
  rw [h, blockN_apply]
  refine congrArg X (funext fun a => Fin.ext ?_)
  match a with
  | ⟨0, _⟩ => show ((meshBlock [2, 2, 2] ![[1], [], []] c) (0 : Fin 3)).val * 1 + 0 = yv c; rw [mbA0]; omega
  | ⟨1, _⟩ => show ((meshBlock [2, 2, 2] ![[1], [], []] c) (1 : Fin 3)).val * 256 + i1.val = i1.val; rw [mbA1]; omega
  | ⟨2, _⟩ => show ((meshBlock [2, 2, 2] ![[1], [], []] c) (2 : Fin 3)).val * 512 + i2.val = i2.val; rw [mbA2]; omega

/-- Entry (P, Q) of device `c`'s block of the reference's result: entry (P, 256·y + Q) of the sum over the leading axis. -/
theorem ref_entry (c : Dev nD) (X : (⟨3, ![2, 256, 512]⟩ : Shape).Idx → Elt Ideal .f32) (P Q : Fin 256) :
    (blockN ⟨2, ![256, 256]⟩ ⟨2, ![256, 512]⟩ (meshBlock [2, 2, 2] ![[], [1]] c) (Cert.ReferenceIdeal.Read.val_main_v0 (F := Ideal) X)) (ix2 P Q)
      = (0 : EReal) + ((show EReal from X (ix3 (0 : Fin 2) P ⟨256 * yv c + Q.val, by have := yv_lt c; omega⟩))
          + (show EReal from X (ix3 (1 : Fin 2) P ⟨256 * yv c + Q.val, by have := yv_lt c; omega⟩))) := by
  rw [blockN_apply, Cert.ReferenceIdeal.Read.val_main_v0_apply, Fin.sum_univ_two, Cert.ReferenceIdeal.Read.val_main_cst_apply]
  have hi (k : Fin 2) : Cert.ReferenceIdeal.Read.idx_main_v0
      ((by decide : TilesN ⟨2, ![256, 256]⟩ ⟨2, ![256, 512]⟩ _).idx (meshBlock [2, 2, 2] ![[], [1]] c) (ix2 P Q)) k
        = ix3 k P ⟨256 * yv c + Q.val, by have := yv_lt c; omega⟩ :=
    funext fun a => Fin.ext (by
      match a with
      | ⟨0, _⟩ => rfl
      | ⟨1, _⟩ => show ((meshBlock [2, 2, 2] ![[], [1]] c) (0 : Fin 2)).val * 256 + P.val = P.val; rw [mbB0]; omega
      | ⟨2, _⟩ => show ((meshBlock [2, 2, 2] ![[], [1]] c) (1 : Fin 2)).val * 256 + Q.val = 256 * yv c + Q.val; rw [mbB1]; omega)
  rw [hi, hi]
  exact congrArg (· + _) Ideal.ofBits_zero_f32

/-- The kernel's result on device `c` is its block of the reference's result: x[y] + x[1 − y] against 0 + (x[0] + x[1]) on
    the device's column half — addition on the extended reals is commutative and 0 is its unit. -/
theorem outAt_eq_block (c : Dev nD) (X : (⟨3, ![2, 256, 512]⟩ : Shape).Idx → Elt Ideal .f32)
    (hc : m ((c : Thread nD τ).loc main_arg0) = blockN ⟨3, ![1, 256, 512]⟩ ⟨3, ![2, 256, 512]⟩ (meshBlock [2, 2, 2] ![[1], [], []] c) X)
    (hp : m ((peer c : Thread nD τ).loc main_arg0) = blockN ⟨3, ![1, 256, 512]⟩ ⟨3, ![2, 256, 512]⟩ (meshBlock [2, 2, 2] ![[1], [], []] (peer c)) X) :
    outAt m ρ c = blockN ⟨2, ![256, 256]⟩ ⟨2, ![256, 512]⟩ (meshBlock [2, 2, 2] ![[], [1]] c) (Cert.ReferenceIdeal.Read.val_main_v0 (F := Ideal) X) := by
  funext j
  obtain ⟨P, Q, rfl⟩ : ∃ (P Q : Fin 256), j = ix2 P Q := ⟨j 0, j 1, eq_ix2 j⟩
  rw [kernel_entry, ref_entry, xstg_block m ρ c X hc, xstg_block m ρ (peer c) X hp]
  have hy := yv_lt c
  have hpy := yv_peer c
  rcases (by omega : yv c = 0 ∨ yv c = 1) with h0 | h1
  · have e0 : (⟨yv c, yv_lt c⟩ : Fin 2) = 0 := Fin.ext h0
    have e1 : (⟨yv (peer c), yv_lt (peer c)⟩ : Fin 2) = 1 := Fin.ext (show yv (peer c) = 1 by omega)
    rw [e0, e1, zero_add]
  · have e0 : (⟨yv c, yv_lt c⟩ : Fin 2) = 1 := Fin.ext h1
    have e1 : (⟨yv (peer c), yv_lt (peer c)⟩ : Fin 2) = 0 := Fin.ext (show yv (peer c) = 0 by omega)
    rw [e0, e1, zero_add]
    exact add_comm (G := EReal) _ _

end Cert.KernelIdeal.RSValue

end
-- ==== Proof.lean ====
/-
  A reduce-scatter along the mesh axis y of a 2 × 2 × 2 mesh against the sum over the leading axis on one device.
  Each of the eight devices holds row y of x : f32[2, 256, 512], keeps its own column half, exchanges the other half with
  its partner (the device at the other y) in two remote copies behind a two-sided barrier handshake, and adds what
  arrives to what it kept; the reference computes x[0] + x[1] (on the zero the reduction starts from) and device c is to
  hold columns 256·y … 256·y + 255 of it.

  The three frames: the two printed kernels (word level and idealized) run to the end under the exchange's protocol
  (one proof, stated for any float instance, read at each) and leave the input array as it was; the reference's run is
  the generated one with its value dropped. No operation of the kernel was rewritten by the idealization, so there is
  nothing to preserve. The algebraic claim: the idealized kernel's run ends with each device's result array at the
  entrywise sum of its own and its partner's kept columns, which is the device's block of the reference's sum because
  addition on the extended reals is commutative and zero is its unit; no finiteness of the inputs is used.
-/
import proofs.«900472_g7700000000000473_dist_rs_v7x_xyz2x2x2_y_m256_n256_f32_1_alg».proof.Defs
import proofs.«900472_g7700000000000473_dist_rs_v7x_xyz2x2x2_y_m256_n256_f32_1_alg».proof.Proof.Gen.Kernel
import proofs.«900472_g7700000000000473_dist_rs_v7x_xyz2x2x2_y_m256_n256_f32_1_alg».proof.Proof.Gen.Kernel.Skeleton
import proofs.«900472_g7700000000000473_dist_rs_v7x_xyz2x2x2_y_m256_n256_f32_1_alg».proof.Proof.Gen.Kernel.Launch
import proofs.«900472_g7700000000000473_dist_rs_v7x_xyz2x2x2_y_m256_n256_f32_1_alg».proof.Proof.Gen.Kernel.Points
import proofs.«900472_g7700000000000473_dist_rs_v7x_xyz2x2x2_y_m256_n256_f32_1_alg».proof.Proof.Gen.Kernel.Frame
import proofs.«900472_g7700000000000473_dist_rs_v7x_xyz2x2x2_y_m256_n256_f32_1_alg».proof.Proof.Gen.KernelIdeal
import proofs.«900472_g7700000000000473_dist_rs_v7x_xyz2x2x2_y_m256_n256_f32_1_alg».proof.Proof.Gen.KernelIdeal.Skeleton
import proofs.«900472_g7700000000000473_dist_rs_v7x_xyz2x2x2_y_m256_n256_f32_1_alg».proof.Proof.Gen.KernelIdeal.Launch
import proofs.«900472_g7700000000000473_dist_rs_v7x_xyz2x2x2_y_m256_n256_f32_1_alg».proof.Proof.Gen.KernelIdeal.Points
import proofs.«900472_g7700000000000473_dist_rs_v7x_xyz2x2x2_y_m256_n256_f32_1_alg».proof.Proof.Gen.KernelIdeal.Frame
import proofs.«900472_g7700000000000473_dist_rs_v7x_xyz2x2x2_y_m256_n256_f32_1_alg».proof.Proof.Gen.ReferenceIdeal
import proofs.«900472_g7700000000000473_dist_rs_v7x_xyz2x2x2_y_m256_n256_f32_1_alg».proof.Proof.Gen.Pre_finite_inputs_Kernel
import proofs.«900472_g7700000000000473_dist_rs_v7x_xyz2x2x2_y_m256_n256_f32_1_alg».proof.Proof.Gen.Pre_finite_inputs_ReferenceIdeal
import proofs.«900472_g7700000000000473_dist_rs_v7x_xyz2x2x2_y_m256_n256_f32_1_alg».proof.Proof.Gen.ReferenceIdeal.Read
import proofs.«900472_g7700000000000473_dist_rs_v7x_xyz2x2x2_y_m256_n256_f32_1_alg».proof.Proof.KernelLaunch
import proofs.«900472_g7700000000000473_dist_rs_v7x_xyz2x2x2_y_m256_n256_f32_1_alg».proof.Proof.KernelIdealLaunch
import proofs.«900472_g7700000000000473_dist_rs_v7x_xyz2x2x2_y_m256_n256_f32_1_alg».proof.Proof.KernelIdealValue
import Idealize.ShloMosaic.Adequacy
import Idealize.ShloMosaic.Init

noncomputable section

namespace Cert.Proof

open Idealize.ShloMosaic Idealize.ShloMosaic.TcCoe Idealize.SL.Sem

/-- The word-level kernel runs to the end and leaves the input array as it was. -/
theorem frame_k : Cert.frame_Kernel := by
  intro m ρ _
  exact (θ_run Cert.Kernel.defs _ _).mono (fun _ h c => (h c (0 : Fin 2)).trans (Cert.Kernel.RS.finalA_x m ρ c))
    (Cert.Kernel.RS.run_main (F := Bits) m ρ)

/-- So does the idealized kernel. -/
theorem frame_ki : Cert.frame_KernelIdeal := by
  intro m ρ _
  exact (θ_run Cert.KernelIdeal.defs _ _).mono (fun _ h c => (h c (0 : Fin 2)).trans (Cert.KernelIdeal.RS.finalA_x m ρ c))
    (Cert.KernelIdeal.RS.run_main (F := Ideal) m ρ)

/-- The reference's run, its value dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- Each device's result array ends as its column half of x[0] + x[1]: its own kept columns plus its partner's, the two
    devices of a pair holding rows y and 1 − y of the whole input. -/
theorem algebraic : Cert.algebraic_KernelIdeal_ReferenceIdeal := by
  intro m ρ m' ρ' _ hagree
  refine ⟨Cert.ReferenceIdeal.Read.val_main_v0 (F := Ideal)
    (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono
      (fun _ h c => ⟨(h c (1 : Fin 2)).trans ?_, (h c (0 : Fin 2)).trans (Cert.KernelIdeal.RS.finalA_x m ρ c)⟩)
      (Cert.KernelIdeal.RS.run_main (F := Ideal) m ρ)
    rw [Cert.KernelIdeal.RS.finalA_o]
    exact Cert.KernelIdeal.RSValue.outAt_eq_block m ρ c _ (hagree c) (hagree (Cert.KernelIdeal.RS.peer c))
  · exact (θ_run Cert.ReferenceIdeal.defs _ _).mono
      (fun _ h => ⟨((h 0).1).trans (Cert.ReferenceIdeal.Read.val_main_v0_eq _), (h 0).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, preserves, algebraic⟩

end Cert.Proof

end
